-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S128x1 : Shape := ⟨2, ![128, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg13 : FVec F S128x1 .f32) (main_arg14 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x1 .f32 := Host.absf main_arg13
  let main_cst_20 : FVec F S_ .f32 := constant S_ .f32 0x7F800000#32
  let main_v55 : FVec F S128x1 .f32 := broadcastInDim S128x1 ![] bcast_S_S128x1 main_cst_20
  let main_v56 : IVec S128x1 1 := cmpf .olt main_v54 main_v55
  let main_c_21 : IVec S_ 1 := constantI S_ 1 1#1
  let main_v57 : IVec S_ 1 := (fun x v => Host.reduce IntOp.andi x v reducesTo_S128x1_S_d0_1 h_S_) main_v56 main_c_21
  let main_v58 : IVec S_ 1 := andi main_v53 main_v57
  let main_v59 : FVec F S1 .f32 := Host.absf main_arg14
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg9 : FVec F S128x256 .f32) (main_arg10 : FVec F S256 .f32) (main_arg11 : FVec F S256x128 .f32) (main_arg12 : FVec F S128 .f32) (main_arg13 : FVec F S128x1 .f32) (main_arg14 : FVec F S1 .f32) (main_v33 : IVec S_ 1) : IVec S_ 1 :=
  let main_v34 : FVec F S128x256 .f32 := Host.absf main_arg9
  let main_cst_12 : FVec F S_ .f32 := constant S_ .f32 0x7F800000#32
  let main_v35 : FVec F S128x256 .f32 := broadcastInDim S128x256 ![] bcast_S_S128x256 main_cst_12
  let main_v36 : IVec S128x256 1 := cmpf .olt main_v34 main_v35
  let main_c_13 : IVec S_ 1 := constantI S_ 1 1#1
  let main_v37 : IVec S_ 1 := (fun x v => Host.reduce IntOp.andi x v reducesTo_S128x256_S_d0_1 h_S_) main_v36 main_c_13
  let main_v38 : IVec S_ 1 := andi main_v33 main_v37
  let main_v39 : FVec F S256 .f32 := Host.absf main_arg10
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x128 .f32 := Host.absf main_arg11
  let main_cst_16 : FVec F S_ .f32 := constant S_ .f32 0x7F800000#32
  let main_v45 : FVec F S256x128 .f32 := broadcastInDim S256x128 ![] bcast_S_S256x128 main_cst_16
  let main_v46 : IVec S256x128 1 := cmpf .olt main_v44 main_v45
  let main_c_17 : IVec S_ 1 := constantI S_ 1 1#1
  let main_v47 : IVec S_ 1 := (fun x v => Host.reduce IntOp.andi x v reducesTo_S256x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_v48 main_v49 main_v50

def fn_part1 {F : FTy → Type} [FloatOps F] (main_arg6 : FVec F S128 .f32) (main_arg7 : FVec F S128x128 .f32) (main_arg8 : FVec F S128 .f32) (main_arg9 : FVec F S128x256 .f32) (main_arg10 : FVec F S256 .f32) (main_arg11 : FVec F S256x128 .f32) (main_arg12 : FVec F S128 .f32) (main_arg13 : FVec F S128x1 .f32) (main_arg14 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x256 .f32) (main_arg10 : FVec F S256 .f32) (main_arg11 : FVec F S256x128 .f32) (main_arg12 : FVec F S128 .f32) (main_arg13 : FVec F S128x1 .f32) (main_arg14 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_arg14 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩
abbrev S2048x128 : Shape := ⟨2, ![2048, 128]⟩
abbrev S100000x1 : Shape := ⟨2, ![100000, 1]⟩
abbrev S2048x1 : Shape := ⟨2, ![2048, 1]⟩
abbrev S2048x256 : Shape := ⟨2, ![2048, 256]⟩
abbrev S1x256 : Shape := ⟨2, ![1, 256]⟩
abbrev S1x1 : Shape := ⟨2, ![1, 1]⟩

abbrev nBuf : Space → Nat
  | .hbm => 114
  | .vmem => 30
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x256, .f32⟩
  | .hbm, ⟨10, _⟩ => ⟨S256, .f32⟩
  | .hbm, ⟨11, _⟩ => ⟨S256x128, .f32⟩
  | .hbm, ⟨12, _⟩ => ⟨S128, .f32⟩
  | .hbm, ⟨13, _⟩ => ⟨S128x1, .f32⟩
  | .hbm, ⟨14, _⟩ => ⟨S1, .f32⟩
  | .hbm, ⟨15, _⟩ => ⟨S1x1600000, .i32⟩
  | .hbm, ⟨16, _⟩ => ⟨S1600000, .i32⟩
  | .hbm, ⟨17, _⟩ => ⟨S1x1600000, .i32⟩
  | .hbm, ⟨18, _⟩ => ⟨S1600000, .i32⟩
  | .hbm, ⟨19, _⟩ => ⟨S100000, .i32⟩
  | .hbm, ⟨20, _⟩ => ⟨S1700000, .i32⟩
  | .hbm, ⟨21, _⟩ => ⟨S1700000, .i32⟩
  | .hbm, ⟨22, _⟩ => ⟨S_, .f32⟩
  | .hbm, ⟨23, _⟩ => ⟨S1700000, .f32⟩
  | .hbm, ⟨24, _⟩ => ⟨S_, .f32⟩
  | .hbm, ⟨25, _⟩ => ⟨S100000, .f32⟩
  | .hbm, ⟨26, _⟩ => ⟨S1700000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .i1⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S_, .f32⟩
  | .hbm, ⟨35, _⟩ => ⟨S_, .f32⟩
  | .hbm, ⟨36, _⟩ => ⟨S100000, .f32⟩
  | .hbm, ⟨37, _⟩ => ⟨S100000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000, .f32⟩
  | .hbm, ⟨56, _⟩ => ⟨S1700000, .f32⟩
  | .hbm, ⟨57, _⟩ => ⟨S100000x128, .f32⟩
  | .hbm, ⟨58, _⟩ => ⟨S_, .i32⟩
  | .hbm, ⟨59, _⟩ => ⟨S1700000, .i32⟩
  | .hbm, ⟨60, _⟩ => ⟨S1700000, .i1⟩
  | .hbm, ⟨61, _⟩ => ⟨S_, .i32⟩
  | .hbm, ⟨62, _⟩ => ⟨S1700000, .i32⟩
  | .hbm, ⟨63, _⟩ => ⟨S1700000, .i32⟩
  | .hbm, ⟨64, _⟩ => ⟨S1700000, .i32⟩
  | .hbm, ⟨65, _⟩ => ⟨S1700000x1, .i32⟩
  | .hbm, ⟨66, _⟩ => ⟨S1700000x128, .f32⟩
  | .hbm, ⟨67, _⟩ => ⟨S1700000x1, .f32⟩
  | .hbm, ⟨68, _⟩ => ⟨S1700000x128, .f32⟩
  | .hbm, ⟨69, _⟩ => ⟨S1700000x128, .f32⟩
  | .hbm, ⟨70, _⟩ => ⟨S_, .f32⟩
  | .hbm, ⟨71, _⟩ => ⟨S100000x128, .f32⟩
  | .hbm, ⟨72, _⟩ => ⟨S1700000x1, .i32⟩
  | .hbm, ⟨73, _⟩ => ⟨S100000x128, .f32⟩
  | .hbm, ⟨74, _⟩ => ⟨S100000x128, .f32⟩
  | .hbm, ⟨75, _⟩ => ⟨S_, .i32⟩
  | .hbm, ⟨76, _⟩ => ⟨S1700000, .i32⟩
  | .hbm, ⟨77, _⟩ => ⟨S1700000, .i1⟩
  | .hbm, ⟨78, _⟩ => ⟨S_, .i32⟩
  | .hbm, ⟨79, _⟩ => ⟨S1700000, .i32⟩
  | .hbm, ⟨80, _⟩ => ⟨S1700000, .i32⟩
  | .hbm, ⟨81, _⟩ => ⟨S1700000, .i32⟩
  | .hbm, ⟨82, _⟩ => ⟨S1700000x1, .i32⟩
  | .hbm, ⟨83, _⟩ => ⟨S1700000x128, .f32⟩
  | .hbm, ⟨84, _⟩ => ⟨S1700000x1, .f32⟩
  | .hbm, ⟨85, _⟩ => ⟨S1700000x128, .f32⟩
  | .hbm, ⟨86, _⟩ => ⟨S1700000x128, .f32⟩
  | .hbm, ⟨87, _⟩ => ⟨S_, .f32⟩
  | .hbm, ⟨88, _⟩ => ⟨S100000x128, .f32⟩
  | .hbm, ⟨89, _⟩ => ⟨S1700000x1, .i32⟩
  | .hbm, ⟨90, _⟩ => ⟨S100000x128, .f32⟩
  | .hbm, ⟨91, _⟩ => ⟨S100000x128, .f32⟩
  | .hbm, ⟨92, _⟩ => ⟨S_, .i32⟩
  | .hbm, ⟨93, _⟩ => ⟨S1700000, .i32⟩
  | .hbm, ⟨94, _⟩ => ⟨S1700000, .i1⟩
  | .hbm, ⟨95, _⟩ => ⟨S_, .i32⟩
  | .hbm, ⟨96, _⟩ => ⟨S1700000, .i32⟩
  | .hbm, ⟨97, _⟩ => ⟨S1700000, .i32⟩
  | .hbm, ⟨98, _⟩ => ⟨S1700000, .i32⟩
  | .hbm, ⟨99, _⟩ => ⟨S1700000x1, .i32⟩
  | .hbm, ⟨100, _⟩ => ⟨S1700000x128, .f32⟩
  | .hbm, ⟨101, _⟩ => ⟨S1700000x1, .f32⟩
  | .hbm, ⟨102, _⟩ => ⟨S1700000x128, .f32⟩
  | .hbm, ⟨103, _⟩ => ⟨S1700000x128, .f32⟩
  | .hbm, ⟨104, _⟩ => ⟨S_, .f32⟩
  | .hbm, ⟨105, _⟩ => ⟨S100000x128, .f32⟩
  | .hbm, ⟨106, _⟩ => ⟨S1700000x1, .i32⟩
  | .hbm, ⟨107, _⟩ => ⟨S100000x128, .f32⟩
  | .hbm, ⟨108, _⟩ => ⟨S100000x128, .f32⟩
  | .hbm, ⟨109, _⟩ => ⟨S_, .f32⟩
  | .hbm, ⟨110, _⟩ => ⟨S2048x128, .f32⟩
  | .hbm, ⟨111, _⟩ => ⟨S100000x1, .i32⟩
  | .hbm, ⟨112, _⟩ => ⟨S2048x128, .f32⟩
  | .hbm, ⟨113, _⟩ => ⟨S2048x1, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128, .f32⟩
  | .local _ .vmem, ⟨8, _⟩ => ⟨S128x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128, .f32⟩
  | .local _ .vmem, ⟨14, _⟩ => ⟨S128x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S128, .f32⟩
  | .local _ .vmem, ⟨20, _⟩ => ⟨S5000x128, .f32⟩
  | .local _ .vmem, ⟨21, _⟩ => ⟨S5000x128, .f32⟩
  | .local _ .vmem, ⟨22, _⟩ => ⟨S2048x128, .f32⟩
  | .local _ .vmem, ⟨23, _⟩ => ⟨S128x256, .f32⟩
  | .local _ .vmem, ⟨24, _⟩ => ⟨S256, .f32⟩
  | .local _ .vmem, ⟨25, _⟩ => ⟨S256x128, .f32⟩
  | .local _ .vmem, ⟨26, _⟩ => ⟨S128, .f32⟩
  | .local _ .vmem, ⟨27, _⟩ => ⟨S128x1, .f32⟩
  | .local _ .vmem, ⟨28, _⟩ => ⟨S1, .f32⟩
  | .local _ .vmem, ⟨29, _⟩ => ⟨S2048x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_1 : Ref sig .tc := ⟨.hbm, 28, rfl⟩
abbrev main_v11 : Ref sig .tc := ⟨.hbm, 29, rfl⟩
abbrev main_v12 : Ref sig .tc := ⟨.hbm, 30, rfl⟩
abbrev main_cst_2 : Ref sig .tc := ⟨.hbm, 31, rfl⟩
abbrev main_v13 : Ref sig .tc := ⟨.hbm, 32, rfl⟩
abbrev main_v14 : Ref sig .tc := ⟨.hbm, 33, rfl⟩
abbrev main_cst_3 : Ref sig .tc := ⟨.hbm, 34, rfl⟩
abbrev main_call0_v0 : Ref sig .tc := ⟨.hbm, 35, rfl⟩
abbrev main_call0_v1 : Ref sig .tc := ⟨.hbm, 36, rfl⟩
abbrev main_v15 : Ref sig .tc := ⟨.hbm, 37, rfl⟩
abbrev main_c : Ref sig .tc := ⟨.hbm, 38, rfl⟩
abbrev main_v16 : Ref sig .tc := ⟨.hbm, 39, rfl⟩
abbrev main_v17 : Ref sig .tc := ⟨.hbm, 40, rfl⟩
abbrev main_c_4 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_c_5 : Ref sig .tc := ⟨.hbm, 47, rfl⟩
abbrev main_v23 : Ref sig .tc := ⟨.hbm, 48, rfl⟩
abbrev main_v24 : Ref sig .tc := ⟨.hbm, 49, rfl⟩
abbrev main_c_6 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_c_7 : Ref sig .tc := ⟨.hbm, 58, rfl⟩
abbrev main_v32 : Ref sig .tc := ⟨.hbm, 59, rfl⟩
abbrev main_v33 : Ref sig .tc := ⟨.hbm, 60, rfl⟩
abbrev main_c_8 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_cst_9 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_c_10 : Ref sig .tc := ⟨.hbm, 75, rfl⟩
abbrev main_v46 : Ref sig .tc := ⟨.hbm, 76, rfl⟩
abbrev main_v47 : Ref sig .tc := ⟨.hbm, 77, rfl⟩
abbrev main_c_11 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_cst_12 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_c_13 : Ref sig .tc := ⟨.hbm, 92, rfl⟩
abbrev main_v60 : Ref sig .tc := ⟨.hbm, 93, rfl⟩
abbrev main_v61 : Ref sig .tc := ⟨.hbm, 94, rfl⟩
abbrev main_c_14 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_cst_15 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_cst_16 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg1_0 : Ref sig .tc := ⟨.vmem, 23, rfl⟩
abbrev cc4_stg2_0 : Ref sig .tc := ⟨.vmem, 24, rfl⟩
abbrev cc4_stg3_0 : Ref sig .tc := ⟨.vmem, 25, rfl⟩
abbrev cc4_stg4_0 : Ref sig .tc := ⟨.vmem, 26, rfl⟩
abbrev cc4_stg5_0 : Ref sig .tc := ⟨.vmem, 27, rfl⟩
abbrev cc4_stg6_0 : Ref sig .tc := ⟨.vmem, 28, rfl⟩
abbrev cc4_stg7_0 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc4_sem0_0 : DmaSem sig := 22
abbrev cc4_sem1_0 : DmaSem sig := 23
abbrev cc4_sem2_0 : DmaSem sig := 24
abbrev cc4_sem3_0 : DmaSem sig := 25
abbrev cc4_sem4_0 : DmaSem sig := 26
abbrev cc4_sem5_0 : DmaSem sig := 27
abbrev cc4_sem6_0 : DmaSem sig := 28
abbrev cc4_sem7_0 : DmaSem sig := 29

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S2048x128 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S128x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S256x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128x1 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S2048x1 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S5000x128_S5000x128 : S5000x128.ShapeCasts S5000x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  bcast_S_S2048x128 : S_.BroadcastsInDim S2048x128 (![] : Fin 0 → Fin S2048x128.rank)
  bcast_S100000_S100000x1_0 : S100000.BroadcastsInDim S100000x1 (![0] : Fin 1 → Fin S100000x1.rank)
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S128x256_S128x256_0_0 : ∀ a, (![0, 0] : Fin 2 → Nat) a + S128x256.size a ≤ S128x256.size a
  h_S128x256 : 0 < S128x256.numel
  inb_S256_S256_0 : ∀ a, (![0] : Fin 1 → Nat) a + S256.size a ≤ S256.size a
  h_S256 : 0 < S256.numel
  shapeCasts_S256_S1x256 : S256.ShapeCasts S1x256
  broadcasts_S1x256_S2048x256 : S1x256.Broadcasts S2048x256
  inb_S256x128_S256x128_0_0 : ∀ a, (![0, 0] : Fin 2 → Nat) a + S256x128.size a ≤ S256x128.size a
  h_S256x128 : 0 < S256x128.numel
  broadcasts_S1x128_S2048x128 : S1x128.Broadcasts S2048x128
  inb_S128x1_S128x1_0_0 : ∀ a, (![0, 0] : Fin 2 → Nat) a + S128x1.size a ≤ S128x1.size a
  h_S128x1 : 0 < S128x1.numel
  inb_S1_S1_0 : ∀ a, (![0] : Fin 1 → Nat) a + S1.size a ≤ S1.size a
  h_S1 : 0 < S1.numel
  shapeCasts_S1_S1x1 : S1.ShapeCasts S1x1
  broadcasts_S1x1_S2048x1 : S1x1.Broadcasts S2048x1
  inb_S2048x1_S2048x1_0_0 : ∀ a, (![0, 0] : Fin 2 → Nat) a + S2048x1.size a ≤ S2048x1.size a
  h_S2048x1 : 0 < S2048x1.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S2048x128_S100000x1_S100000x128_1_0_0_1_wf : ScatterDims.WF S2048x128 S100000x1 S100000x128 [1] [0] [0] 1
  dot_S2048x128_S128x256_S2048x256_1_0_0_1_n_n_wf : DotDims.WF S2048x128 S128x256 S2048x256 [1] [0] [0] [1] [] []
  dot_S2048x256_S256x128_S2048x128_1_0_0_1_n_n_wf : DotDims.WF S2048x256 S256x128 S2048x128 [1] [0] [0] [1] [] []
  dot_S2048x128_S128x1_S2048x1_1_0_0_1_n_n_wf : DotDims.WF S2048x128 S128x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128.size a ≤ S128.size a
  hwx2_1 : ∀ i : grid2.Coords, EltTy.bits .f32 = 32 ∨ (Rect.block (s := S128) S128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128.size a ≤ S128.size a
  hwx3_1 : ∀ i : grid3.Coords, EltTy.bits .f32 = 32 ∨ (Rect.block (s := S128) S128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S2048x128.size a ≤ S2048x128.size a
  hwx4_0 : ∀ i : grid4.Coords, EltTy.bits .f32 = 32 ∨ (Rect.block (s := S2048x128) S2048x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x256.size a ≤ S128x256.size a
  hwx4_1 : ∀ i : grid4.Coords, EltTy.bits .f32 = 32 ∨ (Rect.block (s := S128x256) S128x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S256.size a ≤ S256.size a
  hwx4_2 : ∀ i : grid4.Coords, EltTy.bits .f32 = 32 ∨ (Rect.block (s := S256) S256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S256x128.size a ≤ S256x128.size a
  hwx4_3 : ∀ i : grid4.Coords, EltTy.bits .f32 = 32 ∨ (Rect.block (s := S256x128) S256x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128.size a ≤ S128.size a
  hwx4_4 : ∀ i : grid4.Coords, EltTy.bits .f32 = 32 ∨ (Rect.block (s := S128) S128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x1.size a ≤ S128x1.size a
  hwx4_5 : ∀ i : grid4.Coords, EltTy.bits .f32 = 32 ∨ (Rect.block (s := S128x1) S128x1.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1.size a ≤ S1.size a
  hwx4_6 : ∀ i : grid4.Coords, EltTy.bits .f32 = 32 ∨ (Rect.block (s := S1) S1.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S2048x1.size a ≤ S2048x1.size a
  hwx4_7 : ∀ i : grid4.Coords, EltTy.bits .f32 = 32 ∨ (Rect.block (s := S2048x1) S2048x1.size (cc4_transform_7 i) (hinb4_7 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S2048x128_S100000x1_S100000x128_1_0_0_1 : ScatterDims S2048x128 S100000x1 S100000x128 where
  updateWindowDims := [1]
  insertedWindowDims := [0]
  scatterDimsToOperandDims := [0]
  indexVectorDim := 1
  wf := scatter_S2048x128_S100000x1_S100000x128_1_0_0_1_wf
def dot_S2048x128_S128x256_S2048x256_1_0_0_1_n_n : DotDims S2048x128 S128x256 S2048x256 where
  lhsContracting := [1]
  rhsContracting := [0]
  lhsNonContracting := [0]
  rhsNonContracting := [1]
  lhsBatch := []
  rhsBatch := []
  wf := dot_S2048x128_S128x256_S2048x256_1_0_0_1_n_n_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def dot_S2048x128_S128x1_S2048x1_1_0_0_1_n_n : DotDims S2048x128 S128x1 S2048x1 where
  lhsContracting := [1]
  rhsContracting := [0]
  lhsNonContracting := [0]
  rhsNonContracting := [1]
  lhsBatch := []
  rhsBatch := []
  wf := dot_S2048x128_S128x1_S2048x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v58) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v59) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v72) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg8) S128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v73) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v76) S2048x128.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg9) S128x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg10) S256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg11) S256x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg12) S128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg13) S128x1.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_arg14) S1.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v77) S2048x1.size cc4_transform_7 reads4_7 true true 1 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S2048x128 : Shape := ⟨2, ![2048, 128]⟩
abbrev S100000x1 : Shape := ⟨2, ![100000, 1]⟩
abbrev S2048x256 : Shape := ⟨2, ![2048, 256]⟩
abbrev S1x256 : Shape := ⟨2, ![1, 256]⟩
abbrev S2048x1 : Shape := ⟨2, ![2048, 1]⟩
abbrev S1x1 : Shape := ⟨2, ![1, 1]⟩

abbrev nBuf : Space → Nat
  | .hbm => 148
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x256, .f32⟩
  | 10 => ⟨S256, .f32⟩
  | 11 => ⟨S256x128, .f32⟩
  | 12 => ⟨S128, .f32⟩
  | 13 => ⟨S128x1, .f32⟩
  | 14 => ⟨S1, .f32⟩
  | 15 => ⟨S1x1600000, .i32⟩
  | 16 => ⟨S1600000, .i32⟩
  | 17 => ⟨S1x1600000, .i32⟩
  | 18 => ⟨S1600000, .i32⟩
  | 19 => ⟨S100000, .i32⟩
  | 20 => ⟨S1700000, .i32⟩
  | 21 => ⟨S1700000, .i32⟩
  | 22 => ⟨S_, .f32⟩
  | 23 => ⟨S1700000, .f32⟩
  | 24 => ⟨S_, .f32⟩
  | 25 => ⟨S100000, .f32⟩
  | 26 => ⟨S1700000x1, .i32⟩
  | 27 => ⟨S100000, .f32⟩
  | 28 => ⟨S_, .f32⟩
  | 29 => ⟨S100000, .f32⟩
  | 30 => ⟨S100000, .i1⟩
  | 31 => ⟨S_, .f32⟩
  | 32 => ⟨S100000, .f32⟩
  | 33 => ⟨S100000, .f32⟩
  | 34 => ⟨S_, .f32⟩
  | 35 => ⟨S_, .f32⟩
  | 36 => ⟨S100000, .f32⟩
  | 37 => ⟨S100000, .f32⟩
  | 38 => ⟨S_, .i32⟩
  | 39 => ⟨S1700000, .i32⟩
  | 40 => ⟨S1700000, .i1⟩
  | 41 => ⟨S_, .i32⟩
  | 42 => ⟨S1700000, .i32⟩
  | 43 => ⟨S1700000, .i32⟩
  | 44 => ⟨S1700000, .i32⟩
  | 45 => ⟨S1700000x1, .i32⟩
  | 46 => ⟨S1700000, .f32⟩
  | 47 => ⟨S_, .i32⟩
  | 48 => ⟨S1700000, .i32⟩
  | 49 => ⟨S1700000, .i1⟩
  | 50 => ⟨S_, .i32⟩
  | 51 => ⟨S1700000, .i32⟩
  | 52 => ⟨S1700000, .i32⟩
  | 53 => ⟨S1700000, .i32⟩
  | 54 => ⟨S1700000x1, .i32⟩
  | 55 => ⟨S1700000, .f32⟩
  | 56 => ⟨S1700000, .f32⟩
  | 57 => ⟨S100000x128, .f32⟩
  | 58 => ⟨S_, .i32⟩
  | 59 => ⟨S1700000, .i32⟩
  | 60 => ⟨S1700000, .i1⟩
  | 61 => ⟨S_, .i32⟩
  | 62 => ⟨S1700000, .i32⟩
  | 63 => ⟨S1700000, .i32⟩
  | 64 => ⟨S1700000, .i32⟩
  | 65 => ⟨S1700000x1, .i32⟩
  | 66 => ⟨S1700000x128, .f32⟩
  | 67 => ⟨S1700000x1, .f32⟩
  | 68 => ⟨S1700000x128, .f32⟩
  | 69 => ⟨S1700000x128, .f32⟩
  | 70 => ⟨S_, .f32⟩
  | 71 => ⟨S100000x128, .f32⟩
  | 72 => ⟨S1700000x1, .i32⟩
  | 73 => ⟨S100000x128, .f32⟩
  | 74 => ⟨S1x128, .f32⟩
  | 75 => ⟨S100000x128, .f32⟩
  | 76 => ⟨S100000x128, .f32⟩
  | 77 => ⟨S100000x128, .f32⟩
  | 78 => ⟨S100000x128, .f32⟩
  | 79 => ⟨S100000x128, .f32⟩
  | 80 => ⟨S100000x128, .f32⟩
  | 81 => ⟨S_, .i32⟩
  | 82 => ⟨S1700000, .i32⟩
  | 83 => ⟨S1700000, .i1⟩
  | 84 => ⟨S_, .i32⟩
  | 85 => ⟨S1700000, .i32⟩
  | 86 => ⟨S1700000, .i32⟩
  | 87 => ⟨S1700000, .i32⟩
  | 88 => ⟨S1700000x1, .i32⟩
  | 89 => ⟨S1700000x128, .f32⟩
  | 90 => ⟨S1700000x1, .f32⟩
  | 91 => ⟨S1700000x128, .f32⟩
  | 92 => ⟨S1700000x128, .f32⟩
  | 93 => ⟨S_, .f32⟩
  | 94 => ⟨S100000x128, .f32⟩
  | 95 => ⟨S1700000x1, .i32⟩
  | 96 => ⟨S100000x128, .f32⟩
  | 97 => ⟨S1x128, .f32⟩
  | 98 => ⟨S100000x128, .f32⟩
  | 99 => ⟨S100000x128, .f32⟩
  | 100 => ⟨S100000x128, .f32⟩
  | 101 => ⟨S100000x128, .f32⟩
  | 102 => ⟨S100000x128, .f32⟩
  | 103 => ⟨S100000x128, .f32⟩
  | 104 => ⟨S_, .i32⟩
  | 105 => ⟨S1700000, .i32⟩
  | 106 => ⟨S1700000, .i1⟩
  | 107 => ⟨S_, .i32⟩
  | 108 => ⟨S1700000, .i32⟩
  | 109 => ⟨S1700000, .i32⟩
  | 110 => ⟨S1700000, .i32⟩
  | 111 => ⟨S1700000x1, .i32⟩
  | 112 => ⟨S1700000x128, .f32⟩
  | 113 => ⟨S1700000x1, .f32⟩
  | 114 => ⟨S1700000x128, .f32⟩
  | 115 => ⟨S1700000x128, .f32⟩
  | 116 => ⟨S_, .f32⟩
  | 117 => ⟨S100000x128, .f32⟩
  | 118 => ⟨S1700000x1, .i32⟩
  | 119 => ⟨S100000x128, .f32⟩
  | 120 => ⟨S1x128, .f32⟩
  | 121 => ⟨S100000x128, .f32⟩
  | 122 => ⟨S100000x128, .f32⟩
  | 123 => ⟨S100000x128, .f32⟩
  | 124 => ⟨S100000x128, .f32⟩
  | 125 => ⟨S100000x128, .f32⟩
  | 126 => ⟨S_, .f32⟩
  | 127 => ⟨S2048x128, .f32⟩
  | _ => ⟨S100000x128, .f32⟩

abbrev hbmTy0_1 (i : Nat) : BufTy := match i % 128 with
  | 0 => ⟨S100000x1, .i32⟩
  | 1 => ⟨S2048x128, .f32⟩
  | 2 => ⟨S2048x256, .f32⟩
  | 3 => ⟨S1x256, .f32⟩
  | 4 => ⟨S2048x256, .f32⟩
  | 5 => ⟨S2048x256, .f32⟩
  | 6 => ⟨S2048x256, .f32⟩
  | 7 => ⟨S2048x256, .f32⟩
  | 8 => ⟨S2048x256, .f32⟩
  | 9 => ⟨S2048x128, .f32⟩
  | 10 => ⟨S1x128, .f32⟩
  | 11 => ⟨S2048x128, .f32⟩
  | 12 => ⟨S2048x128, .f32⟩
  | 13 => ⟨S2048x128, .f32⟩
  | 14 => ⟨S2048x128, .f32⟩
  | 15 => ⟨S2048x128, .f32⟩
  | 16 => ⟨S2048x1, .f32⟩
  | 17 => ⟨S1x1, .f32⟩
  | 18 => ⟨S2048x1, .f32⟩
  | 19 => ⟨S2048x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_1 : Ref sig .tc := ⟨.hbm, 28, rfl⟩
abbrev main_v11 : Ref sig .tc := ⟨.hbm, 29, rfl⟩
abbrev main_v12 : Ref sig .tc := ⟨.hbm, 30, rfl⟩
abbrev main_cst_2 : Ref sig .tc := ⟨.hbm, 31, rfl⟩
abbrev main_v13 : Ref sig .tc := ⟨.hbm, 32, rfl⟩
abbrev main_v14 : Ref sig .tc := ⟨.hbm, 33, rfl⟩
abbrev main_cst_3 : Ref sig .tc := ⟨.hbm, 34, rfl⟩
abbrev main_call0_v0 : Ref sig .tc := ⟨.hbm, 35, rfl⟩
abbrev main_call0_v1 : Ref sig .tc := ⟨.hbm, 36, rfl⟩
abbrev main_v15 : Ref sig .tc := ⟨.hbm, 37, rfl⟩
abbrev main_c : Ref sig .tc := ⟨.hbm, 38, rfl⟩
abbrev main_v16 : Ref sig .tc := ⟨.hbm, 39, rfl⟩
abbrev main_v17 : Ref sig .tc := ⟨.hbm, 40, rfl⟩
abbrev main_c_4 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_c_5 : Ref sig .tc := ⟨.hbm, 47, rfl⟩
abbrev main_v23 : Ref sig .tc := ⟨.hbm, 48, rfl⟩
abbrev main_v24 : Ref sig .tc := ⟨.hbm, 49, rfl⟩
abbrev main_c_6 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_c_7 : Ref sig .tc := ⟨.hbm, 58, rfl⟩
abbrev main_v32 : Ref sig .tc := ⟨.hbm, 59, rfl⟩
abbrev main_v33 : Ref sig .tc := ⟨.hbm, 60, rfl⟩
abbrev main_c_8 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_cst_9 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_c_10 : Ref sig .tc := ⟨.hbm, 81, rfl⟩
abbrev main_v52 : Ref sig .tc := ⟨.hbm, 82, rfl⟩
abbrev main_v53 : Ref sig .tc := ⟨.hbm, 83, rfl⟩
abbrev main_c_11 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_cst_12 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_c_13 : Ref sig .tc := ⟨.hbm, 104, rfl⟩
abbrev main_v72 : Ref sig .tc := ⟨.hbm, 105, rfl⟩
abbrev main_v73 : Ref sig .tc := ⟨.hbm, 106, rfl⟩
abbrev main_c_14 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_cst_15 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_cst_16 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S2048x128 : S_.BroadcastsInDim S2048x128 (![] : Fin 0 → Fin S2048x128.rank)
  bcast_S100000_S100000x1_0 : S100000.BroadcastsInDim S100000x1 (![0] : Fin 1 → Fin S100000x1.rank)
  bcast_S256_S1x256_1 : S256.BroadcastsInDim S1x256 (![1] : Fin 1 → Fin S1x256.rank)
  bcast_S1x256_S2048x256_0_1 : S1x256.BroadcastsInDim S2048x256 (![0, 1] : Fin 2 → Fin S2048x256.rank)
  bcast_S1x128_S2048x128_0_1 : S1x128.BroadcastsInDim S2048x128 (![0, 1] : Fin 2 → Fin S2048x128.rank)
  bcast_S1_S1x1_1 : S1.BroadcastsInDim S1x1 (![1] : Fin 1 → Fin S1x1.rank)
  bcast_S1x1_S2048x1_0_1 : S1x1.BroadcastsInDim S2048x1 (![0, 1] : Fin 2 → Fin S2048x1.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S2048x128_S100000x1_S100000x128_1_0_0_1_wf : ScatterDims.WF S2048x128 S100000x1 S100000x128 [1] [0] [0] 1
  dot_S2048x128_S128x256_S2048x256_1_0_0_1_n_n_wf : DotDims.WF S2048x128 S128x256 S2048x256 [1] [0] [0] [1] [] []
  dot_S2048x256_S256x128_S2048x128_1_0_0_1_n_n_wf : DotDims.WF S2048x256 S256x128 S2048x128 [1] [0] [0] [1] [] []
  dot_S2048x128_S128x1_S2048x1_1_0_0_1_n_n_wf : DotDims.WF S2048x128 S128x1 S2048x1 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S2048x128_S100000x1_S100000x128_1_0_0_1 : ScatterDims S2048x128 S100000x1 S100000x128 where
  updateWindowDims := [1]
  insertedWindowDims := [0]
  scatterDimsToOperandDims := [0]
  indexVectorDim := 1
  wf := scatter_S2048x128_S100000x1_S100000x128_1_0_0_1_wf
def dot_S2048x128_S128x256_S2048x256_1_0_0_1_n_n : DotDims S2048x128 S128x256 S2048x256 where
  lhsContracting := [1]
  rhsContracting := [0]
  lhsNonContracting := [0]
  rhsNonContracting := [1]
  lhsBatch := []
  rhsBatch := []
  wf := dot_S2048x128_S128x256_S2048x256_1_0_0_1_n_n_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def dot_S2048x128_S128x1_S2048x1_1_0_0_1_n_n : DotDims S2048x128 S128x1 S2048x1 where
  lhsContracting := [1]
  rhsContracting := [0]
  lhsNonContracting := [0]
  rhsNonContracting := [1]
  lhsBatch := []
  rhsBatch := []
  wf := dot_S2048x128_S128x1_S2048x1_1_0_0_1_n_n_wf

class Facts : Prop extends Facts₀ where

variable [Facts]
-- ==== Proof.KRun.lean ====
/-
  The kernel program's run with its result named: every weakly fair execution of the whole program (host stretches
  and the five kernel regions) terminates without a fault, the result array holds what the last region leaves in it
  (the fold of the program's segments over the launch memory, read at the result), and the argument arrays end as
  launched.
-/
import proofs.«159411_j22677427323530_1_alg».proof.Proof.Gen.KernelIdeal.Frame

set_option maxRecDepth 16384

noncomputable section

namespace Cert.KernelIdeal.RunV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result array at the last boundary's contents. -/
theorem run_main : θ_run defs (onTc (τ := τ) (main (F := F))) ⟨m, fun _ => 0, ρ⟩ (fun r => ∀ c : Dev nD,
      r.2.mem ((c.tc : Thread nD τ).loc main_v77) = W12 m ρ c (Proc.devRef .tc main_v77)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v77 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c),
       (h c _ (mem_uc main_arg13 (by decide))).trans (W12_main_arg13 m ρ c),
       (h c _ (mem_uc main_arg14 (by decide))).trans (W12_main_arg14 m ρ c)⟩)

end Cert.KernelIdeal.RunV

end
-- ==== Proof.Spec.lean ====
/-
  The arithmetic of one graph-convolution model, stated once over exact values (extended reals), index by index.

  * `act z = z · tanh (exp z)` is the activation.
  * `dense h W` is the matrix product: entry (r, j) is the sum over k of h(r, k) · W(k, j).
  * `biasAct a b` adds the bias row b to every row of a and applies the activation entrywise.
  * `head g …` is the three-layer perceptron on the pooled graph features: two activated dense layers and a last
    dense layer with its bias, one output column.

  Both programs compute these same functions between the same gather / scatter steps; the tiling of the rows into
  blocks of 5000 on one side does not change any entry, because an entry of each of these depends on one row only.
-/
import Idealize.ShloMosaic.PureOps.Ideal
import Idealize.ShloMosaic.Lib.ValueIdx

noncomputable section

namespace Cert.Gcn

open Idealize.ShloMosaic Idealize.ShloMosaic.ValueIdx

/-- The activation x · tanh (exp x) on the extended reals. -/
def act (z : EReal) : EReal := z * Ideal.tanh (Ideal.exp z)

/-- The matrix product of an N × K array with a K × M array, entry by entry. -/
def dense (N K M : ℕ) (h : (⟨2, ![N, K]⟩ : Shape).Idx → EReal) (W : (⟨2, ![K, M]⟩ : Shape).Idx → EReal) :
    (⟨2, ![N, M]⟩ : Shape).Idx → EReal :=
  fun i => ∑ k : Fin K, h (ix2 (i 0) k) * W (ix2 k (i 1))

/-- The bias row added to every row, then the activation, entry by entry. -/
def biasAct (N K : ℕ) (a : (⟨2, ![N, K]⟩ : Shape).Idx → EReal) (b : (⟨1, ![K]⟩ : Shape).Idx → EReal) :
    (⟨2, ![N, K]⟩ : Shape).Idx → EReal :=
  fun i => act (a i + b (ix1 (i 1)))

/-- The bias row added to every row, entry by entry. -/
def addBias (N K : ℕ) (a : (⟨2, ![N, K]⟩ : Shape).Idx → EReal) (b : (⟨1, ![K]⟩ : Shape).Idx → EReal) :
    (⟨2, ![N, K]⟩ : Shape).Idx → EReal :=
  fun i => a i + b (ix1 (i 1))

/-- The perceptron head on the pooled features: 128 → 256 → 128 → 1. -/
def head (g : (⟨2, ![2048, 128]⟩ : Shape).Idx → EReal)
    (w0 : (⟨2, ![128, 256]⟩ : Shape).Idx → EReal) (b0 : (⟨1, ![256]⟩ : Shape).Idx → EReal)
    (w1 : (⟨2, ![256, 128]⟩ : Shape).Idx → EReal) (b1 : (⟨1, ![128]⟩ : Shape).Idx → EReal)
    (w2 : (⟨2, ![128, 1]⟩ : Shape).Idx → EReal) (b2 : (⟨1, ![1]⟩ : Shape).Idx → EReal) :
    (⟨2, ![2048, 1]⟩ : Shape).Idx → EReal :=
  addBias 2048 1
    (dense 2048 128 1 (biasAct 2048 128 (dense 2048 256 128 (biasAct 2048 256 (dense 2048 128 256 g w0) b0) w1) b1) w2) b2

theorem dense_apply (N K M : ℕ) (h : (⟨2, ![N, K]⟩ : Shape).Idx → EReal) (W : (⟨2, ![K, M]⟩ : Shape).Idx → EReal)
    (p : Fin N) (q : Fin M) : dense N K M h W (ix2 p q) = ∑ k : Fin K, h (ix2 p k) * W (ix2 k q) := rfl

theorem biasAct_apply (N K : ℕ) (a : (⟨2, ![N, K]⟩ : Shape).Idx → EReal) (b : (⟨1, ![K]⟩ : Shape).Idx → EReal)
    (p : Fin N) (q : Fin K) : biasAct N K a b (ix2 p q) = act (a (ix2 p q) + b (ix1 q)) := rfl

theorem addBias_apply (N K : ℕ) (a : (⟨2, ![N, K]⟩ : Shape).Idx → EReal) (b : (⟨1, ![K]⟩ : Shape).Idx → EReal)
    (p : Fin N) (q : Fin K) : addBias N K a b (ix2 p q) = a (ix2 p q) + b (ix1 q) := rfl

end Cert.Gcn

end
-- ==== Proof.LibPlainDot.lean ====
/-
  A plain two-dimensional matrix product read at one entry.

  For the dimension numbers "contract the left operand's second axis with the right operand's first" (an M × K matrix
  times a K × N matrix), entry (p, q) of the product at the exact values is the sum over k of L(p, k) · R(k, q): the
  kernel's product into a zero accumulator and the host's product are this same sum.
-/
import Idealize.ShloMosaic.PureOps.Ideal.Laws
import Idealize.ShloMosaic.Lib.ValueIdx

noncomputable section

namespace Idealize.ShloMosaic.ValueIdx

/-- The contraction sum of an M × K by K × N product at output entry (p, q), re-indexed by the contracted coordinate. -/
theorem plain_contr_sum {M K N : ℕ} (L : (⟨2, ![M, K]⟩ : Shape).Idx → EReal) (R : (⟨2, ![K, N]⟩ : Shape).Idx → EReal)
    (p : Fin M) (q : Fin N) :
    ∑ k : (DotDims.plain M K N).contr.Idx,
        L ((DotDims.plain M K N).lhsIdx (ix2 p q) k) * R ((DotDims.plain M K N).rhsIdx (ix2 p q) k)
      = ∑ k : Fin K, L (ix2 p k) * R (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl (ix2 p q) _).trans hk)
  have er : (DotDims.plain M K N).rhsIdx (ix2 p q) ((contrEquiv1 (DotDims.plain M K N) K rfl rfl).symm k) = ix2 k q :=
    funext fun a => Fin.ext (by
      match a with
      | ⟨0, _⟩ => exact ((DotDims.plain M K N).rhsIdx_val_of_single rfl (ix2 p q) _).trans hk
      | ⟨1, _⟩ => rfl)
  rw [el, er]

/-- A kernel's matrix product into the zero accumulator, for any dimension record that is the plain one. -/
theorem matmul_plain_zero_apply {M K N : ℕ} (D : DotDims ⟨2, ![M, K]⟩ ⟨2, ![K, N]⟩ ⟨2, ![M, N]⟩)
    (hD : D = DotDims.plain M K N) (prec : Option ContractPrecision)
    (L : FVec Ideal ⟨2, ![M, K]⟩ .f32) (R : FVec Ideal ⟨2, ![K, N]⟩ .f32) (p : Fin M) (q : Fin N) :
    matmul D prec L R (constant ⟨2, ![M, N]⟩ .f32 0x00000000#32) (ix2 p q) = ∑ k : Fin K, L (ix2 p k) * R (ix2 k q) := by
  subst hD
  exact (Ideal.matmul_constant_zero_apply (DotDims.plain M K N) prec L R (ix2 p q)).trans (plain_contr_sum L R p q)

/-- The host's matrix product, for any dimension record that is the plain one. -/
theorem dotGeneral_plain_apply {M K N : ℕ} (D : DotDims ⟨2, ![M, K]⟩ ⟨2, ![K, N]⟩ ⟨2, ![M, N]⟩)
    (hD : D = DotDims.plain M K N) (prec : Option ContractPrecision)
    (L : FVec Ideal ⟨2, ![M, K]⟩ .f32) (R : FVec Ideal ⟨2, ![K, N]⟩ .f32) (p : Fin M) (q : Fin N) :
    Host.dotGeneral D prec L R (ix2 p q) = ∑ k : Fin K, L (ix2 p k) * R (ix2 k q) := by
  subst hD
  simp only [Host.dotGeneral]
  exact (Ideal.dotGeneral_apply (DotDims.plain M K N) prec _ L R (ix2 p q)).trans (plain_contr_sum L R p q)

end Idealize.ShloMosaic.ValueIdx

end
-- ==== Proof.LibPlainMatmul.lean ====
/-
  A plain M × K by K × N kernel matrix product into the zero accumulator, read at one entry, for operands of any float
  formats (a kernel rounds its operands to bf16 on the way in; at the exact values a change of format is the identity):
  entry (p, q) is the sum over k of L(p, k) · R(k, q).
-/
import proofs.«159411_j22677427323530_1_alg».proof.Proof.LibPlainDot

noncomputable section

namespace Idealize.ShloMosaic.ValueIdx

/-- A kernel's matrix product into the zero accumulator, operands of any formats, for any dimension record that is the
    plain one. -/
theorem matmul_plain_zero_apply_fmt {M K N : ℕ} {φ₁ φ₂ : FTy} (D : DotDims ⟨2, ![M, K]⟩ ⟨2, ![K, N]⟩ ⟨2, ![M, N]⟩)
    (hD : D = DotDims.plain M K N) (prec : Option ContractPrecision)
    (L : FVec Ideal ⟨2, ![M, K]⟩ φ₁) (R : FVec Ideal ⟨2, ![K, N]⟩ φ₂) (p : Fin M) (q : Fin N) :
    matmul D prec L R (constant ⟨2, ![M, N]⟩ .f32 0x00000000#32) (ix2 p q) = ∑ k : Fin K, L (ix2 p k) * R (ix2 k q) := by
  subst hD
  exact (Ideal.matmul_constant_zero_apply (DotDims.plain M K N) prec L R (ix2 p q)).trans (plain_contr_sum L R p q)

end Idealize.ShloMosaic.ValueIdx

end
-- ==== Proof.Payload.lean ====
/-
  What each kernel body stores, entry by entry, as a function of the blocks it loads (exact values).

  A body loads a block of rows (5000 × 128, or all 2048 × 128 pooled rows), a bias row and a weight matrix, and stores
  one block. At exact values the change of number format before each matrix product is the identity, the product into
  a zero accumulator is the plain sum over the contracted axis, and the bias row, cast to a 1 × K row and repeated
  down the rows, contributes its entry of the column. So each stored block is `dense`, `biasAct` or their
  composition, of the loaded blocks.
-/
import proofs.«159411_j22677427323530_1_alg».proof.Proof.Gen.KernelIdeal.Skeleton
import proofs.«159411_j22677427323530_1_alg».proof.Proof.Spec
import proofs.«159411_j22677427323530_1_alg».proof.Proof.LibPlainMatmul
import Idealize.ShloMosaic.Lib.ValueLayout
import Idealize.ShloMosaic.Lib.Pipeline.Value

noncomputable section

namespace Cert.KernelIdeal.Pay

open Cert.KernelIdeal Cert.KernelIdeal.Gen Idealize.ShloMosaic Idealize.ShloMosaic.ValueIdx Cert.Gcn

/-- A bias row cast to 1 × K and repeated down N rows reads, at (p, q), the bias at q. -/
theorem biasRow_apply {N K : ℕ} (b : FVec Ideal ⟨1, ![K]⟩ .f32) (h1 : (⟨1, ![K]⟩ : Shape).ShapeCasts ⟨2, ![1, K]⟩)
    (h2 : (⟨2, ![1, K]⟩ : Shape).Broadcasts ⟨2, ![N, K]⟩) (p : Fin N) (q : Fin K) :
    broadcastTo ⟨2, ![N, K]⟩ (shapeCast ⟨2, ![1, K]⟩ b h1) h2 (ix2 p q) = b (ix1 q) :=
  (broadcastTo_1b_ab_apply _ h2 p q).trans (shapeCast_a_1a_apply b h1 0 q)

/-- The activated, biased block at an entry. -/
theorem actBlock_apply {N K : ℕ} (x : FVec Ideal ⟨2, ![N, K]⟩ .f32) (b : FVec Ideal ⟨1, ![K]⟩ .f32)
    (h0 : (⟨2, ![N, K]⟩ : Shape).ShapeCasts ⟨2, ![N, K]⟩)
    (h1 : (⟨1, ![K]⟩ : Shape).ShapeCasts ⟨2, ![1, K]⟩) (h2 : (⟨2, ![1, K]⟩ : Shape).Broadcasts ⟨2, ![N, K]⟩)
    (p : Fin N) (q : Fin K) :
    mulf (addf (shapeCast ⟨2, ![N, K]⟩ x h0) (broadcastTo ⟨2, ![N, K]⟩ (shapeCast ⟨2, ![1, K]⟩ b h1) h2))
        (tanh (exp (addf (shapeCast ⟨2, ![N, K]⟩ x h0) (broadcastTo ⟨2, ![N, K]⟩ (shapeCast ⟨2, ![1, K]⟩ b h1) h2))))
        (ix2 p q)
      = biasAct N K x b (ix2 p q) := by
  rw [shapeCast_self]
  show (x (ix2 p q) + broadcastTo ⟨2, ![N, K]⟩ (shapeCast ⟨2, ![1, K]⟩ b h1) h2 (ix2 p q))
      * Ideal.tanh (Ideal.exp (x (ix2 p q) + broadcastTo ⟨2, ![N, K]⟩ (shapeCast ⟨2, ![1, K]⟩ b h1) h2 (ix2 p q))) = _
  rw [biasRow_apply b h1 h2 p q]
  rfl

/-- Body 0: the plain product of the loaded row block with the weight matrix. -/
theorem pay0_apply (x0 : Vec Ideal S5000x128 .f32) (x1 : Vec Ideal S128x128 .f32) (p : Fin 5000) (q : Fin 128) :
    k0_pay1 x0 x1 (ix2 p q) = dense 5000 128 128 x0 x1 (ix2 p q) := by
  unfold k0_pay1
  exact matmul_plain_zero_apply_fmt dot_S5000x128_S128x128_S5000x128_1_0_0_1_n_n rfl none _ _ p q

/-- Body 1: the product of the activated, biased row block with the weight matrix. -/
theorem pay1_apply (x0 : Vec Ideal S5000x128 .f32) (x1 : Vec Ideal S128 .f32) (x2 : Vec Ideal S128x128 .f32)
    (p : Fin 5000) (q : Fin 128) :
    k1_pay1 x0 x1 x2 (ix2 p q) = dense 5000 128 128 (biasAct 5000 128 x0 x1) x2 (ix2 p q) := by
  unfold k1_pay1
  refine (matmul_plain_zero_apply_fmt dot_S5000x128_S128x128_S5000x128_1_0_0_1_n_n rfl none _ _ p q).trans ?_
  refine Finset.sum_congr rfl fun k _ => ?_
  exact congrArg (· * x2 (ix2 k q)) (actBlock_apply x0 x1 _ _ _ p k)

/-- Body 2: the same as body 1. -/
theorem pay2_apply (x0 : Vec Ideal S5000x128 .f32) (x1 : Vec Ideal S128 .f32) (x2 : Vec Ideal S128x128 .f32)
    (p : Fin 5000) (q : Fin 128) :
    k2_pay1 x0 x1 x2 (ix2 p q) = dense 5000 128 128 (biasAct 5000 128 x0 x1) x2 (ix2 p q) := by
  unfold k2_pay1
  refine (matmul_plain_zero_apply_fmt dot_S5000x128_S128x128_S5000x128_1_0_0_1_n_n rfl none _ _ p q).trans ?_
  refine Finset.sum_congr rfl fun k _ => ?_
  exact congrArg (· * x2 (ix2 k q)) (actBlock_apply x0 x1 _ _ _ p k)

/-- Body 3: the activated, biased row block. -/
theorem pay3_apply (x0 : Vec Ideal S5000x128 .f32) (x1 : Vec Ideal S128 .f32) (p : Fin 5000) (q : Fin 128) :
    k3_pay1 x0 x1 (ix2 p q) = biasAct 5000 128 x0 x1 (ix2 p q) := by
  unfold k3_pay1
  exact actBlock_apply x0 x1 _ _ _ p q

/-- Body 4: the perceptron head of the pooled rows. -/
theorem pay4_apply (g : Vec Ideal S2048x128 .f32) (w0 : Vec Ideal S128x256 .f32) (b0 : Vec Ideal S256 .f32)
    (w1 : Vec Ideal S256x128 .f32) (b1 : Vec Ideal S128 .f32) (w2 : Vec Ideal S128x1 .f32) (b2 : Vec Ideal S1 .f32)
    (p : Fin 2048) (q : Fin 1) :
    k4_pay1 g w0 b0 w1 b1 w2 b2 (ix2 p q) = head g w0 b0 w1 b1 w2 b2 (ix2 p q) := by
  unfold k4_pay1
  rw [shapeCast_self]
  show (matmul (F := Ideal) dot_S2048x128_S128x1_S2048x1_1_0_0_1_n_n none _ _ (constant S2048x1 .f32 0x00000000#32) : FVec Ideal S2048x1 .f32) (ix2 p q)
      + broadcastTo S2048x1 (shapeCast S1x1 b2 shapeCasts_S1_S1x1) broadcasts_S1x1_S2048x1 (ix2 p q) = _
  rw [biasRow_apply b2 shapeCasts_S1_S1x1 broadcasts_S1x1_S2048x1 p q]
  refine congrArg (· + b2 (ix1 q)) ?_
  refine (matmul_plain_zero_apply_fmt dot_S2048x128_S128x1_S2048x1_1_0_0_1_n_n rfl none _ _ p q).trans ?_
  refine Finset.sum_congr rfl fun k2 _ => ?_
  refine congrArg (· * w2 (ix2 k2 q)) ?_
  show (_ + broadcastTo S2048x128 (shapeCast S1x128 b1 shapeCasts_S128_S1x128) broadcasts_S1x128_S2048x128 (ix2 p k2))
      * Ideal.tanh (Ideal.exp (_ + broadcastTo S2048x128 (shapeCast S1x128 b1 shapeCasts_S128_S1x128) broadcasts_S1x128_S2048x128 (ix2 p k2))) = _
  rw [biasRow_apply b1 shapeCasts_S128_S1x128 broadcasts_S1x128_S2048x128 p k2]
  refine congrArg (fun z => (z + b1 (ix1 k2)) * Ideal.tanh (Ideal.exp (z + b1 (ix1 k2)))) ?_
  refine (matmul_plain_zero_apply_fmt dot_S2048x256_S256x128_S2048x128_1_0_0_1_n_n rfl none _ _ p k2).trans ?_
  refine Finset.sum_congr rfl fun k1 _ => ?_
  refine congrArg (· * w1 (ix2 k1 k2)) ?_
  show (_ + broadcastTo S2048x256 (shapeCast S1x256 b0 shapeCasts_S256_S1x256) broadcasts_S1x256_S2048x256 (ix2 p k1))
      * Ideal.tanh (Ideal.exp (_ + broadcastTo S2048x256 (shapeCast S1x256 b0 shapeCasts_S256_S1x256) broadcasts_S1x256_S2048x256 (ix2 p k1))) = _
  rw [biasRow_apply b0 shapeCasts_S256_S1x256 broadcasts_S1x256_S2048x256 p k1]
  refine congrArg (fun z => (z + b0 (ix1 k1)) * Ideal.tanh (Ideal.exp (z + b0 (ix1 k1)))) ?_
  exact matmul_plain_zero_apply_fmt dot_S2048x128_S128x256_S2048x256_1_0_0_1_n_n rfl none _ _ p k1

end Cert.KernelIdeal.Pay

end
-- ==== Proof.Region0.lean ====
/-
  Region 0 (multiply the node features by the first weight matrix), as one function of the arrays it finds.

  The grid has 20 points; point t loads rows 5000 t … 5000 t + 4999 of the features and the whole weight matrix, and
  writes rows 5000 t … 5000 t + 4999 of the product. Entry (r, j) of the product depends on row r of the features
  only, so block t of the result is block t of `dense x W`, and the 20 blocks tile the 100000 rows.
-/
import proofs.«159411_j22677427323530_1_alg».proof.Proof.Gen.KernelIdeal.Frame
import proofs.«159411_j22677427323530_1_alg».proof.Proof.Payload

set_option maxRecDepth 16384

noncomputable section

namespace Cert.KernelIdeal.Reg0

open Cert.KernelIdeal Cert.KernelIdeal.Gen Cert.KernelIdeal.Pay Cert.Gcn
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a <;> rfl

/-- Row `p` of block `t` is row `5000 t + p` of the array. -/
def row (tv : ℕ) (htv : tv < 20) (p : Fin 5000) : Fin 100000 := ⟨tv * 5000 + p.val, by have := p.isLt; omega⟩

/-- The printed index maps over the grid: the row windows move with the point, the weights stay. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- One stored block, entry by entry, from blocks that are the features' rows 5000 t + p and the whole weights. -/
theorem block_eq (A : S100000x128.Idx → EReal) (W : S128x128.Idx → EReal) (tv : ℕ) (htv : tv < 20)
    (x0 : Vec Ideal S5000x128 .f32) (x1 : Vec Ideal S128x128 .f32)
    (h0 : ∀ (p : Fin 5000) (k : Fin 128), x0 (ix2 p k) = A (ix2 (row tv htv p) k))
    (h1 : ∀ (k q : Fin 128), x1 (ix2 k q) = W (ix2 k q))
    (p : Fin 5000) (q : Fin 128) :
    k0_pay1 x0 x1 (ix2 p q) = dense 100000 128 128 A W (ix2 (row tv htv p) q) := by
  rw [pay0_apply x0 x1 p q, dense_apply, dense_apply]
  refine Finset.sum_congr rfl fun k _ => ?_
  rw [h0 p k, h1 k q]

/-- What point `t` writes back is block `t` of the product of the arrays as the region finds them. -/
theorem flushed (c : Dev nD) (t : Fin cfg0.N) :
    (dat0 V c).flushed 2 t = ((cfg0.win 2).blk t).view.read (Elt Ideal)
      (dense 100000 128 128 (V c main_arg0) (V c main_arg3)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨e00, e01, e10, e11, e20, e21⟩ := idx_facts t
  have ht : t.val < 20 := t.isLt
  funext j
  have hj0 : (j 0).val < 5000 := (j 0).isLt
  have hj1 : (j 1).val < 128 := (j 1).isLt
  have ej : j = ix2 (⟨(j 0).val, hj0⟩ : Fin 5000) (⟨(j 1).val, hj1⟩ : Fin 128) := funext fun a => by
    match a with
    | ⟨0, _⟩ => rfl
    | ⟨1, _⟩ => rfl
  show k0_pay1 (iblk0 V c 0 t) (iblk0 V c 1 t) j
      = dense 100000 128 128 (V c main_arg0) (V c main_arg3) (((cfg0.win 2).blk t).view.emb j)
  have hemb : ((cfg0.win 2).blk t).view.emb j = ix2 (row t.val ht ⟨(j 0).val, hj0⟩) (⟨(j 1).val, hj1⟩ : Fin 128) := by
    funext a; apply Fin.ext
    match a with
    | ⟨0, _⟩ => show win0_2.index t (0 : Fin 2) * 5000 + 1 * (j 0).val = t.val * 5000 + (j 0).val; omega
    | ⟨1, _⟩ => show win0_2.index t (1 : Fin 2) * 128 + 1 * (j 1).val = (j 1).val; omega
  rw [hemb]
  refine (congrArg (k0_pay1 (iblk0 V c 0 t) (iblk0 V c 1 t)) ej).trans ?_
  refine block_eq (V c main_arg0) (V c main_arg3) t.val ht (iblk0 V c 0 t) (iblk0 V c 1 t) ?_ ?_ _ _
  · intro p k
    show V c main_arg0 (((cfg0.win 0).blk t).view.emb (ix2 p k)) = V c main_arg0 (ix2 (row t.val ht p) k)
    refine congrArg (V c main_arg0) (funext fun a => Fin.ext ?_)
    match a with
    | ⟨0, _⟩ => show win0_0.index t (0 : Fin 2) * 5000 + 1 * p.val = t.val * 5000 + p.val; omega
    | ⟨1, _⟩ => show win0_0.index t (1 : Fin 2) * 128 + 1 * k.val = k.val; omega
  · intro k q
    show V c main_arg3 (((cfg0.win 1).blk t).view.emb (ix2 k q)) = V c main_arg3 (ix2 k q)
    refine congrArg (V c main_arg3) (funext fun a => Fin.ext ?_)
    match a with
    | ⟨0, _⟩ => show win0_1.index t (0 : Fin 2) * 128 + 1 * k.val = k.val; omega
    | ⟨1, _⟩ => show win0_1.index t (1 : Fin 2) * 128 + 1 * q.val = q.val; omega

/-- An index of the result array is in point `t`'s block iff each coordinate is in the block's range on its axis. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v31).slice (win0_2.rect t)).set ↔ _
  rw [View.set_slice_whole, Rect.mem_set_unit]
  exact Iff.rfl

/-- Every row is in the block of the point "row / 5000". -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  let t : Fin cfg0.N := ⟨(i 0).val / 5000, by show (i 0).val / 5000 < 20; omega⟩
  obtain ⟨-, -, -, -, e20, e21⟩ := idx_facts t
  have htv : t.val = (i 0).val / 5000 := rfl
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The result array after the region: the product of the arrays it found. -/
theorem final (c : Dev nD) :
    (dat0 V c).arrAt 2 cfg0.N = dense 100000 128 128 (V c main_arg0) (V c main_arg3) :=
  (dat0 V c).arrAt_eq_of_cover 2 _ (fun t _ => flushed V c t) cover

end Cert.KernelIdeal.Reg0

end
-- ==== Proof.Region1.lean ====
/-
  Region 1 (add the bias row, activate, multiply by the weight matrix), as one function of the arrays it finds.

  The grid has 20 points; point t loads rows 5000 t … 5000 t + 4999 of the aggregate, the whole bias and the whole
  weight matrix, and writes rows 5000 t … 5000 t + 4999 of the result. Entry (r, j) of the result depends on row r of
  the aggregate only, so block t of the result is block t of `dense (biasAct agg b) W`, and the 20 blocks tile the
  100000 rows: the result array is that function.
-/
import proofs.«159411_j22677427323530_1_alg».proof.Proof.Gen.KernelIdeal.Frame
import proofs.«159411_j22677427323530_1_alg».proof.Proof.Payload

set_option maxRecDepth 16384

noncomputable section

namespace Cert.KernelIdeal.Reg1

open Cert.KernelIdeal Cert.KernelIdeal.Gen Cert.KernelIdeal.Pay Cert.Gcn
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a <;> rfl

/-- Row `p` of block `t` is row `5000 t + p` of the array. -/
def row (tv : ℕ) (htv : tv < 20) (p : Fin 5000) : Fin 100000 := ⟨tv * 5000 + p.val, by have := p.isLt; omega⟩

/-- The printed index maps over the grid: the row windows move with the point, the bias and the weights stay. -/
theorem idx_facts : ∀ t : Fin cfg1.N,
    win1_0.index t (0 : Fin 2) = t.val ∧ win1_0.index t (1 : Fin 2) = 0
    ∧ win1_1.index t (0 : Fin 1) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- One stored block, entry by entry, from blocks that are the arrays' rows 5000 t + p, whole bias and whole weights. -/
theorem block_eq (A : S100000x128.Idx → EReal) (b : S128.Idx → EReal) (W : S128x128.Idx → EReal) (tv : ℕ) (htv : tv < 20)
    (x0 : Vec Ideal S5000x128 .f32) (x1 : Vec Ideal S128 .f32) (x2 : Vec Ideal S128x128 .f32)
    (h0 : ∀ (p : Fin 5000) (k : Fin 128), x0 (ix2 p k) = A (ix2 (row tv htv p) k))
    (h1 : ∀ k : Fin 128, x1 (ix1 k) = b (ix1 k))
    (h2 : ∀ (k q : Fin 128), x2 (ix2 k q) = W (ix2 k q))
    (p : Fin 5000) (q : Fin 128) :
    k1_pay1 x0 x1 x2 (ix2 p q) = dense 100000 128 128 (biasAct 100000 128 A b) W (ix2 (row tv htv p) q) := by
  rw [pay1_apply x0 x1 x2 p q, dense_apply, dense_apply]
  refine Finset.sum_congr rfl fun k _ => ?_
  rw [biasAct_apply, biasAct_apply, h0 p k, h1 k, h2 k q]

/-- What point `t` writes back is block `t` of the region's function of the arrays as it finds them. -/
theorem flushed (c : Dev nD) (t : Fin cfg1.N) :
    (dat1 V c).flushed 3 t = ((cfg1.win 3).blk t).view.read (Elt Ideal)
      (dense 100000 128 128 (biasAct 100000 128 (V c main_v44) (V c main_arg4)) (V c main_arg5)) := by
  show (cfg1.win 3).cut (grid1.coords t) ((dat1 V c).after 3 t) = _
  rw [after1_3]
  unfold out1_3
  rw [View.canon_unit_zero hz]
  simp only [View.ld_unit_zero (S := S5000x128) hz, View.ld_unit_zero (S := S128) hz1, View.ld_unit_zero (S := S128x128) hz]
  obtain ⟨e00, e01, e10, e20, e21, e30, e31⟩ := idx_facts t
  have ht : t.val < 20 := t.isLt
  funext j
  have hj0 : (j 0).val < 5000 := (j 0).isLt
  have hj1 : (j 1).val < 128 := (j 1).isLt
  have ej : j = ix2 (⟨(j 0).val, hj0⟩ : Fin 5000) (⟨(j 1).val, hj1⟩ : Fin 128) := funext fun a => by
    match a with
    | ⟨0, _⟩ => rfl
    | ⟨1, _⟩ => rfl
  show k1_pay1 (iblk1 V c 0 t) (iblk1 V c 1 t) (iblk1 V c 2 t) j
      = dense 100000 128 128 (biasAct 100000 128 (V c main_v44) (V c main_arg4)) (V c main_arg5) (((cfg1.win 3).blk t).view.emb j)
  have hemb : ((cfg1.win 3).blk t).view.emb j = ix2 (row t.val ht ⟨(j 0).val, hj0⟩) (⟨(j 1).val, hj1⟩ : Fin 128) := by
    funext a; apply Fin.ext
    match a with
    | ⟨0, _⟩ => show win1_3.index t (0 : Fin 2) * 5000 + 1 * (j 0).val = t.val * 5000 + (j 0).val; omega
    | ⟨1, _⟩ => show win1_3.index t (1 : Fin 2) * 128 + 1 * (j 1).val = (j 1).val; omega
  rw [hemb]
  refine (congrArg (k1_pay1 (iblk1 V c 0 t) (iblk1 V c 1 t) (iblk1 V c 2 t)) ej).trans ?_
  refine block_eq (V c main_v44) (V c main_arg4) (V c main_arg5) t.val ht (iblk1 V c 0 t) (iblk1 V c 1 t) (iblk1 V c 2 t) ?_ ?_ ?_ _ _
  · intro p k
    show V c main_v44 (((cfg1.win 0).blk t).view.emb (ix2 p k)) = V c main_v44 (ix2 (row t.val ht p) k)
    refine congrArg (V c main_v44) (funext fun a => Fin.ext ?_)
    match a with
    | ⟨0, _⟩ => show win1_0.index t (0 : Fin 2) * 5000 + 1 * p.val = t.val * 5000 + p.val; omega
    | ⟨1, _⟩ => show win1_0.index t (1 : Fin 2) * 128 + 1 * k.val = k.val; omega
  · intro k
    show V c main_arg4 (((cfg1.win 1).blk t).view.emb (ix1 k)) = V c main_arg4 (ix1 k)
    refine congrArg (V c main_arg4) (funext fun a => Fin.ext ?_)
    match a with
    | ⟨0, _⟩ => show win1_1.index t (0 : Fin 1) * 128 + 1 * k.val = k.val; omega
  · intro k q
    show V c main_arg5 (((cfg1.win 2).blk t).view.emb (ix2 k q)) = V c main_arg5 (ix2 k q)
    refine congrArg (V c main_arg5) (funext fun a => Fin.ext ?_)
    match a with
    | ⟨0, _⟩ => show win1_2.index t (0 : Fin 2) * 128 + 1 * k.val = k.val; omega
    | ⟨1, _⟩ => show win1_2.index t (1 : Fin 2) * 128 + 1 * q.val = q.val; omega

/-- An index of the result array is in point `t`'s block iff each coordinate is in the block's range on its axis. -/
theorem mem_blk (t : Fin cfg1.N) (i : S100000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v45).slice (win1_3.rect t)).set ↔ _
  rw [View.set_slice_whole, Rect.mem_set_unit]
  exact Iff.rfl

/-- Every row is in the block of the point "row / 5000". -/
theorem cover (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  let t : Fin cfg1.N := ⟨(i 0).val / 5000, by show (i 0).val / 5000 < 20; omega⟩
  obtain ⟨-, -, -, -, -, e30, e31⟩ := idx_facts t
  have htv : t.val = (i 0).val / 5000 := rfl
  refine ⟨t, flush1_3 t, ?_⟩
  rw [mem_blk]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- The result array after the region: the region's function of the arrays it found. -/
theorem final (c : Dev nD) :
    (dat1 V c).arrAt 3 cfg1.N
      = dense 100000 128 128 (biasAct 100000 128 (V c main_v44) (V c main_arg4)) (V c main_arg5) :=
  (dat1 V c).arrAt_eq_of_cover 3 _ (fun t _ => flushed V c t) cover

end Cert.KernelIdeal.Reg1

end
-- ==== Proof.Region2.lean ====
/-
  Region 2 (add the bias row, activate, multiply by the weight matrix), as one function of the arrays it finds.

  The grid has 20 points; point t loads rows 5000 t … 5000 t + 4999 of the aggregate, the whole bias and the whole
  weight matrix, and writes rows 5000 t … 5000 t + 4999 of the result. Entry (r, j) of the result depends on row r of
  the aggregate only, so block t of the result is block t of `dense (biasAct agg b) W`, and the 20 blocks tile the
  100000 rows: the result array is that function.
-/
import proofs.«159411_j22677427323530_1_alg».proof.Proof.Gen.KernelIdeal.Frame
import proofs.«159411_j22677427323530_1_alg».proof.Proof.Payload

set_option maxRecDepth 16384

noncomputable section

namespace Cert.KernelIdeal.Reg2

open Cert.KernelIdeal Cert.KernelIdeal.Gen Cert.KernelIdeal.Pay Cert.Gcn
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a <;> rfl

/-- Row `p` of block `t` is row `5000 t + p` of the array. -/
def row (tv : ℕ) (htv : tv < 20) (p : Fin 5000) : Fin 100000 := ⟨tv * 5000 + p.val, by have := p.isLt; omega⟩

/-- The printed index maps over the grid: the row windows move with the point, the bias and the weights stay. -/
theorem idx_facts : ∀ t : Fin cfg2.N,
    win2_0.index t (0 : Fin 2) = t.val ∧ win2_0.index t (1 : Fin 2) = 0
    ∧ win2_1.index t (0 : Fin 1) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- One stored block, entry by entry, from blocks that are the arrays' rows 5000 t + p, whole bias and whole weights. -/
theorem block_eq (A : S100000x128.Idx → EReal) (b : S128.Idx → EReal) (W : S128x128.Idx → EReal) (tv : ℕ) (htv : tv < 20)
    (x0 : Vec Ideal S5000x128 .f32) (x1 : Vec Ideal S128 .f32) (x2 : Vec Ideal S128x128 .f32)
    (h0 : ∀ (p : Fin 5000) (k : Fin 128), x0 (ix2 p k) = A (ix2 (row tv htv p) k))
    (h1 : ∀ k : Fin 128, x1 (ix1 k) = b (ix1 k))
    (h2 : ∀ (k q : Fin 128), x2 (ix2 k q) = W (ix2 k q))
    (p : Fin 5000) (q : Fin 128) :
    k2_pay1 x0 x1 x2 (ix2 p q) = dense 100000 128 128 (biasAct 100000 128 A b) W (ix2 (row tv htv p) q) := by
  rw [pay2_apply x0 x1 x2 p q, dense_apply, dense_apply]
  refine Finset.sum_congr rfl fun k _ => ?_
  rw [biasAct_apply, biasAct_apply, h0 p k, h1 k, h2 k q]

/-- What point `t` writes back is block `t` of the region's function of the arrays as it finds them. -/
theorem flushed (c : Dev nD) (t : Fin cfg2.N) :
    (dat2 V c).flushed 3 t = ((cfg2.win 3).blk t).view.read (Elt Ideal)
      (dense 100000 128 128 (biasAct 100000 128 (V c main_v58) (V c main_arg6)) (V c main_arg7)) := by
  show (cfg2.win 3).cut (grid2.coords t) ((dat2 V c).after 3 t) = _
  rw [after2_3]
  unfold out2_3
  rw [View.canon_unit_zero hz]
  simp only [View.ld_unit_zero (S := S5000x128) hz, View.ld_unit_zero (S := S128) hz1, View.ld_unit_zero (S := S128x128) hz]
  obtain ⟨e00, e01, e10, e20, e21, e30, e31⟩ := idx_facts t
  have ht : t.val < 20 := t.isLt
  funext j
  have hj0 : (j 0).val < 5000 := (j 0).isLt
  have hj1 : (j 1).val < 128 := (j 1).isLt
  have ej : j = ix2 (⟨(j 0).val, hj0⟩ : Fin 5000) (⟨(j 1).val, hj1⟩ : Fin 128) := funext fun a => by
    match a with
    | ⟨0, _⟩ => rfl
    | ⟨1, _⟩ => rfl
  show k2_pay1 (iblk2 V c 0 t) (iblk2 V c 1 t) (iblk2 V c 2 t) j
      = dense 100000 128 128 (biasAct 100000 128 (V c main_v58) (V c main_arg6)) (V c main_arg7) (((cfg2.win 3).blk t).view.emb j)
  have hemb : ((cfg2.win 3).blk t).view.emb j = ix2 (row t.val ht ⟨(j 0).val, hj0⟩) (⟨(j 1).val, hj1⟩ : Fin 128) := by
    funext a; apply Fin.ext
    match a with
    | ⟨0, _⟩ => show win2_3.index t (0 : Fin 2) * 5000 + 1 * (j 0).val = t.val * 5000 + (j 0).val; omega
    | ⟨1, _⟩ => show win2_3.index t (1 : Fin 2) * 128 + 1 * (j 1).val = (j 1).val; omega
  rw [hemb]
  refine (congrArg (k2_pay1 (iblk2 V c 0 t) (iblk2 V c 1 t) (iblk2 V c 2 t)) ej).trans ?_
  refine block_eq (V c main_v58) (V c main_arg6) (V c main_arg7) t.val ht (iblk2 V c 0 t) (iblk2 V c 1 t) (iblk2 V c 2 t) ?_ ?_ ?_ _ _
  · intro p k
    show V c main_v58 (((cfg2.win 0).blk t).view.emb (ix2 p k)) = V c main_v58 (ix2 (row t.val ht p) k)
    refine congrArg (V c main_v58) (funext fun a => Fin.ext ?_)
    match a with
    | ⟨0, _⟩ => show win2_0.index t (0 : Fin 2) * 5000 + 1 * p.val = t.val * 5000 + p.val; omega
    | ⟨1, _⟩ => show win2_0.index t (1 : Fin 2) * 128 + 1 * k.val = k.val; omega
  · intro k
    show V c main_arg6 (((cfg2.win 1).blk t).view.emb (ix1 k)) = V c main_arg6 (ix1 k)
    refine congrArg (V c main_arg6) (funext fun a => Fin.ext ?_)
    match a with
    | ⟨0, _⟩ => show win2_1.index t (0 : Fin 1) * 128 + 1 * k.val = k.val; omega
  · intro k q
    show V c main_arg7 (((cfg2.win 2).blk t).view.emb (ix2 k q)) = V c main_arg7 (ix2 k q)
    refine congrArg (V c main_arg7) (funext fun a => Fin.ext ?_)
    match a with
    | ⟨0, _⟩ => show win2_2.index t (0 : Fin 2) * 128 + 1 * k.val = k.val; omega
    | ⟨1, _⟩ => show win2_2.index t (1 : Fin 2) * 128 + 1 * q.val = q.val; omega

/-- An index of the result array is in point `t`'s block iff each coordinate is in the block's range on its axis. -/
theorem mem_blk (t : Fin cfg2.N) (i : S100000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v59).slice (win2_3.rect t)).set ↔ _
  rw [View.set_slice_whole, Rect.mem_set_unit]
  exact Iff.rfl

/-- Every row is in the block of the point "row / 5000". -/
theorem cover (i : S100000x128.Idx) :
    ∃ t : Fin cfg2.N, (cfg2.win 3).flush t = true ∧ i ∈ ((cfg2.win 3).blk t).view.set := by
  have hi0 : (i 0).val < 100000 := (i 0).isLt
  have hi1 : (i 1).val < 128 := (i 1).isLt
  let t : Fin cfg2.N := ⟨(i 0).val / 5000, by show (i 0).val / 5000 < 20; omega⟩
  obtain ⟨-, -, -, -, -, e30, e31⟩ := idx_facts t
  have htv : t.val = (i 0).val / 5000 := rfl
  refine ⟨t, flush2_3 t, ?_⟩
  rw [mem_blk]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 128 ≤ (i 1).val ∧ (i 1).val < win2_3.index t (1 : Fin 2) * 128 + 128; omega

/-- The result array after the region: the region's function of the arrays it found. -/
theorem final (c : Dev nD) :
    (dat2 V c).arrAt 3 cfg2.N
      = dense 100000 128 128 (biasAct 100000 128 (V c main_v58) (V c main_arg6)) (V c main_arg7) :=
  (dat2 V c).arrAt_eq_of_cover 3 _ (fun t _ => flushed V c t) cover

end Cert.KernelIdeal.Reg2

end
-- ==== Proof.Region3.lean ====
/-
  Region 3 (add the last bias row and activate), as one function of the arrays it finds.

  The grid has 20 points; point t loads rows 5000 t … 5000 t + 4999 of the aggregate and the whole bias, and writes
  the same rows of the result. The operation is entrywise in the rows, so block t of the result is block t of
  `biasAct agg b`, and the 20 blocks tile the 100000 rows.
-/
import proofs.«159411_j22677427323530_1_alg».proof.Proof.Gen.KernelIdeal.Frame
import proofs.«159411_j22677427323530_1_alg».proof.Proof.Payload

set_option maxRecDepth 16384

noncomputable section

namespace Cert.KernelIdeal.Reg3

open Cert.KernelIdeal Cert.KernelIdeal.Gen Cert.KernelIdeal.Pay Cert.Gcn
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a <;> rfl

/-- Row `p` of block `t` is row `5000 t + p` of the array. -/
def row (tv : ℕ) (htv : tv < 20) (p : Fin 5000) : Fin 100000 := ⟨tv * 5000 + p.val, by have := p.isLt; omega⟩

/-- The printed index maps over the grid: the row windows move with the point, the bias stays. -/
theorem idx_facts : ∀ t : Fin cfg3.N,
    win3_0.index t (0 : Fin 2) = t.val ∧ win3_0.index t (1 : Fin 2) = 0
    ∧ win3_1.index t (0 : Fin 1) = 0
    ∧ win3_2.index t (0 : Fin 2) = t.val ∧ win3_2.index t (1 : Fin 2) = 0 :=
  (by decide +kernel : ∀ t : Fin grid3.N, _)

/-- One stored block, entry by entry, from blocks that are the aggregate's rows 5000 t + p and the whole bias. -/
theorem block_eq (A : S100000x128.Idx → EReal) (b : S128.Idx → EReal) (tv : ℕ) (htv : tv < 20)
    (x0 : Vec Ideal S5000x128 .f32) (x1 : Vec Ideal S128 .f32)
    (h0 : ∀ (p : Fin 5000) (k : Fin 128), x0 (ix2 p k) = A (ix2 (row tv htv p) k))
    (h1 : ∀ k : Fin 128, x1 (ix1 k) = b (ix1 k))
    (p : Fin 5000) (q : Fin 128) :
    k3_pay1 x0 x1 (ix2 p q) = biasAct 100000 128 A b (ix2 (row tv htv p) q) := by
  rw [pay3_apply x0 x1 p q, biasAct_apply, biasAct_apply, h0 p q, h1 q]

/-- What point `t` writes back is block `t` of the activated, biased aggregate as the region finds it. -/
theorem flushed (c : Dev nD) (t : Fin cfg3.N) :
    (dat3 V c).flushed 2 t = ((cfg3.win 2).blk t).view.read (Elt Ideal)
      (biasAct 100000 128 (V c main_v72) (V c main_arg8)) := by
  show (cfg3.win 2).cut (grid3.coords t) ((dat3 V c).after 2 t) = _
  rw [after3_2]
  unfold out3_2
  rw [View.canon_unit_zero hz]
  simp only [View.ld_unit_zero (S := S5000x128) hz, View.ld_unit_zero (S := S128) hz1]
  obtain ⟨e00, e01, e10, e20, e21⟩ := idx_facts t
  have ht : t.val < 20 := t.isLt
  funext j
  have hj0 : (j 0).val < 5000 := (j 0).isLt
  have hj1 : (j 1).val < 128 := (j 1).isLt
  have ej : j = ix2 (⟨(j 0).val, hj0⟩ : Fin 5000) (⟨(j 1).val, hj1⟩ : Fin 128) := funext fun a => by
    match a with
    | ⟨0, _⟩ => rfl
    | ⟨1, _⟩ => rfl
  show k3_pay1 (iblk3 V c 0 t) (iblk3 V c 1 t) j
      = biasAct 100000 128 (V c main_v72) (V c main_arg8) (((cfg3.win 2).blk t).view.emb j)
  have hemb : ((cfg3.win 2).blk t).view.emb j = ix2 (row t.val ht ⟨(j 0).val, hj0⟩) (⟨(j 1).val, hj1⟩ : Fin 128) := by
    funext a; apply Fin.ext
    match a with
    | ⟨0, _⟩ => show win3_2.index t (0 : Fin 2) * 5000 + 1 * (j 0).val = t.val * 5000 + (j 0).val; omega
    | ⟨1, _⟩ => show win3_2.index t (1 : Fin 2) * 128 + 1 * (j 1).val = (j 1).val; omega
  rw [hemb]
  refine (congrArg (k3_pay1 (iblk3 V c 0 t) (iblk3 V c 1 t)) ej).trans ?_
  refine block_eq (V c main_v72) (V c main_arg8) t.val ht (iblk3 V c 0 t) (iblk3 V c 1 t) ?_ ?_ _ _
  · intro p k
    show V c main_v72 (((cfg3.win 0).blk t).view.emb (ix2 p k)) = V c main_v72 (ix2 (row t.val ht p) k)
    refine congrArg (V c main_v72) (funext fun a => Fin.ext ?_)
    match a with
    | ⟨0, _⟩ => show win3_0.index t (0 : Fin 2) * 5000 + 1 * p.val = t.val * 5000 + p.val; omega
    | ⟨1, _⟩ => show win3_0.index t (1 : Fin 2) * 128 + 1 * k.val = k.val; omega
  · intro k
    show V c main_arg8 (((cfg3.win 1).blk t).view.emb (ix1 k)) = V c main_arg8 (ix1 k)
    refine congrArg (V c main_arg8) (funext fun a => Fin.ext ?_)
    match a with
    | ⟨0, _⟩ => show win3_1.index t (0 : Fin 1) * 128 + 1 * k.val = k.val; omega

/-- An index of the result array is in point `t`'s block iff each coordinate is in the block's range on its axis. -/
theorem mem_blk (t : Fin cfg3.N) (i : S100000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v73).slice (win3_2.rect t)).set ↔ _
  rw [View.set_slice_whole, Rect.mem_set_unit]
  exact Iff.rfl

/-- Every row is in the block of the point "row / 5000". -/
theorem cover (i : S100000x128.Idx) :
    ∃ t : Fin cfg3.N, (cfg3.win 2).flush t = true ∧ i ∈ ((cfg3.win 2).blk t).view.set := by
  have hi0 : (i 0).val < 100000 := (i 0).isLt
  have hi1 : (i 1).val < 128 := (i 1).isLt
  let t : Fin cfg3.N := ⟨(i 0).val / 5000, by show (i 0).val / 5000 < 20; omega⟩
  obtain ⟨-, -, -, e20, e21⟩ := idx_facts t
  have htv : t.val = (i 0).val / 5000 := rfl
  refine ⟨t, flush3_2 t, ?_⟩
  rw [mem_blk]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

/-- The result array after the region: the activated, biased aggregate. -/
theorem final (c : Dev nD) :
    (dat3 V c).arrAt 2 cfg3.N = biasAct 100000 128 (V c main_v72) (V c main_arg8) :=
  (dat3 V c).arrAt_eq_of_cover 2 _ (fun t _ => flushed V c t) cover

end Cert.KernelIdeal.Reg3

end
-- ==== Proof.Region4.lean ====
/-
  Region 4 (the perceptron head on the pooled graph features), as one function of the arrays it finds.

  The grid has one point, every window's one block is its whole array, and the body stores the head's 2048 × 1 output
  whole: the result array is `head` of the pooled features, the three weight matrices and the three biases.
-/
import proofs.«159411_j22677427323530_1_alg».proof.Proof.Gen.KernelIdeal.Frame
import proofs.«159411_j22677427323530_1_alg».proof.Proof.Payload

set_option maxRecDepth 16384

noncomputable section

namespace Cert.KernelIdeal.Reg4

open Cert.KernelIdeal Cert.KernelIdeal.Gen Cert.KernelIdeal.Pay Cert.Gcn
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a <;> rfl

/-- Row `p` of block `t` is row `5000 t + p` of the array. -/
def row (tv : ℕ) (htv : tv < 20) (p : Fin 5000) : Fin 100000 := ⟨tv * 5000 + p.val, by have := p.isLt; omega⟩

/-- The printed index maps at the grid's one point: every block index is 0. -/
theorem idx_facts : ∀ t : Fin cfg4.N,
    win4_0.index t (0 : Fin 2) = 0
    ∧ win4_0.index t (1 : Fin 2) = 0
    ∧ win4_1.index t (0 : Fin 2) = 0
    ∧ win4_1.index t (1 : Fin 2) = 0
    ∧ win4_2.index t (0 : Fin 1) = 0
    ∧ win4_3.index t (0 : Fin 2) = 0
    ∧ win4_3.index t (1 : Fin 2) = 0
    ∧ win4_4.index t (0 : Fin 1) = 0
    ∧ win4_5.index t (0 : Fin 2) = 0
    ∧ win4_5.index t (1 : Fin 2) = 0
    ∧ win4_6.index t (0 : Fin 1) = 0
    ∧ win4_7.index t (0 : Fin 2) = 0
    ∧ win4_7.index t (1 : Fin 2) = 0 :=
  (by decide +kernel : ∀ t : Fin grid4.N, _)

/-- The stored block, entry by entry, from blocks that are the whole arrays. -/
theorem block_eq (A0 : S2048x128.Idx → EReal) (A1 : S128x256.Idx → EReal) (A2 : S256.Idx → EReal) (A3 : S256x128.Idx → EReal)
    (A4 : S128.Idx → EReal) (A5 : S128x1.Idx → EReal) (A6 : S1.Idx → EReal)
    (x0 : Vec Ideal S2048x128 .f32) (x1 : Vec Ideal S128x256 .f32) (x2 : Vec Ideal S256 .f32) (x3 : Vec Ideal S256x128 .f32)
    (x4 : Vec Ideal S128 .f32) (x5 : Vec Ideal S128x1 .f32) (x6 : Vec Ideal S1 .f32)
    (h0 : x0 = A0) (h1 : x1 = A1) (h2 : x2 = A2) (h3 : x3 = A3) (h4 : x4 = A4) (h5 : x5 = A5) (h6 : x6 = A6)
    (p : Fin 2048) (q : Fin 1) :
    k4_pay1 x0 x1 x2 x3 x4 x5 x6 (ix2 p q) = head A0 A1 A2 A3 A4 A5 A6 (ix2 p q) := by
  subst h0 h1 h2 h3 h4 h5 h6
  exact pay4_apply x0 x1 x2 x3 x4 x5 x6 p q

set_option maxHeartbeats 1600000 in
/-- What the one point writes back is the (whole) block of the head of the arrays as the region finds them. -/
theorem flushed (c : Dev nD) (t : Fin cfg4.N) :
    (dat4 V c).flushed 7 t = ((cfg4.win 7).blk t).view.read (Elt Ideal)
      (head (V c main_v76) (V c main_arg9) (V c main_arg10) (V c main_arg11) (V c main_arg12) (V c main_arg13) (V c main_arg14)) := by
  show (cfg4.win 7).cut (grid4.coords t) ((dat4 V c).after 7 t) = _
  rw [after4_7]
  unfold out4_7
  rw [View.canon_unit_zero hz]
  simp only [View.ld_unit_zero (S := S2048x128) hz, View.ld_unit_zero (S := S128x256) hz, View.ld_unit_zero (S := S256) hz1,
    View.ld_unit_zero (S := S256x128) hz, View.ld_unit_zero (S := S128) hz1, View.ld_unit_zero (S := S128x1) hz,
    View.ld_unit_zero (S := S1) hz1]
  obtain ⟨f0, f1, f2, f3, f4, f5, f6, f7, f8, f9, f10, f11, f12⟩ := idx_facts t
  have r0 : (iblk4 V c 0 t : Vec Ideal S2048x128 .f32) = (V c main_v76 : S2048x128.Idx → EReal) := funext fun y => by
    show V c main_v76 (((cfg4.win 0).blk t).view.emb y) = V c main_v76 y
    refine congrArg (V c main_v76) (funext fun a => Fin.ext ?_)
    match a with
    | ⟨0, _⟩ => show win4_0.index t (0 : Fin 2) * 2048 + 1 * (y 0).val = (y 0).val; omega
    | ⟨1, _⟩ => show win4_0.index t (1 : Fin 2) * 128 + 1 * (y 1).val = (y 1).val; omega
  have r1 : (iblk4 V c 1 t : Vec Ideal S128x256 .f32) = (V c main_arg9 : S128x256.Idx → EReal) := funext fun y => by
    show V c main_arg9 (((cfg4.win 1).blk t).view.emb y) = V c main_arg9 y
    refine congrArg (V c main_arg9) (funext fun a => Fin.ext ?_)
    match a with
    | ⟨0, _⟩ => show win4_1.index t (0 : Fin 2) * 128 + 1 * (y 0).val = (y 0).val; omega
    | ⟨1, _⟩ => show win4_1.index t (1 : Fin 2) * 256 + 1 * (y 1).val = (y 1).val; omega
  have r2 : (iblk4 V c 2 t : Vec Ideal S256 .f32) = (V c main_arg10 : S256.Idx → EReal) := funext fun y => by
    show V c main_arg10 (((cfg4.win 2).blk t).view.emb y) = V c main_arg10 y
    refine congrArg (V c main_arg10) (funext fun a => Fin.ext ?_)
    match a with
    | ⟨0, _⟩ => show win4_2.index t (0 : Fin 1) * 256 + 1 * (y 0).val = (y 0).val; omega
  have r3 : (iblk4 V c 3 t : Vec Ideal S256x128 .f32) = (V c main_arg11 : S256x128.Idx → EReal) := funext fun y => by
    show V c main_arg11 (((cfg4.win 3).blk t).view.emb y) = V c main_arg11 y
    refine congrArg (V c main_arg11) (funext fun a => Fin.ext ?_)
    match a with
    | ⟨0, _⟩ => show win4_3.index t (0 : Fin 2) * 256 + 1 * (y 0).val = (y 0).val; omega
    | ⟨1, _⟩ => show win4_3.index t (1 : Fin 2) * 128 + 1 * (y 1).val = (y 1).val; omega
  have r4 : (iblk4 V c 4 t : Vec Ideal S128 .f32) = (V c main_arg12 : S128.Idx → EReal) := funext fun y => by
    show V c main_arg12 (((cfg4.win 4).blk t).view.emb y) = V c main_arg12 y
    refine congrArg (V c main_arg12) (funext fun a => Fin.ext ?_)
    match a with
    | ⟨0, _⟩ => show win4_4.index t (0 : Fin 1) * 128 + 1 * (y 0).val = (y 0).val; omega
  have r5 : (iblk4 V c 5 t : Vec Ideal S128x1 .f32) = (V c main_arg13 : S128x1.Idx → EReal) := funext fun y => by
    show V c main_arg13 (((cfg4.win 5).blk t).view.emb y) = V c main_arg13 y
    refine congrArg (V c main_arg13) (funext fun a => Fin.ext ?_)
    match a with
    | ⟨0, _⟩ => show win4_5.index t (0 : Fin 2) * 128 + 1 * (y 0).val = (y 0).val; omega
    | ⟨1, _⟩ => show win4_5.index t (1 : Fin 2) * 1 + 1 * (y 1).val = (y 1).val; omega
  have r6 : (iblk4 V c 6 t : Vec Ideal S1 .f32) = (V c main_arg14 : S1.Idx → EReal) := funext fun y => by
    show V c main_arg14 (((cfg4.win 6).blk t).view.emb y) = V c main_arg14 y
    refine congrArg (V c main_arg14) (funext fun a => Fin.ext ?_)
    match a with
    | ⟨0, _⟩ => show win4_6.index t (0 : Fin 1) * 1 + 1 * (y 0).val = (y 0).val; omega
  funext j
  have hj0 : (j 0).val < 2048 := (j 0).isLt
  have hj1 : (j 1).val < 1 := (j 1).isLt
  have ej : j = ix2 (⟨(j 0).val, hj0⟩ : Fin 2048) (⟨(j 1).val, hj1⟩ : Fin 1) := funext fun a => by
    match a with
    | ⟨0, _⟩ => rfl
    | ⟨1, _⟩ => rfl
  show k4_pay1 (iblk4 V c 0 t) (iblk4 V c 1 t) (iblk4 V c 2 t) (iblk4 V c 3 t) (iblk4 V c 4 t) (iblk4 V c 5 t) (iblk4 V c 6 t) j
      = head (V c main_v76) (V c main_arg9) (V c main_arg10) (V c main_arg11) (V c main_arg12) (V c main_arg13) (V c main_arg14)
          (((cfg4.win 7).blk t).view.emb j)
  have hemb : ((cfg4.win 7).blk t).view.emb j = ix2 (⟨(j 0).val, hj0⟩ : Fin 2048) (⟨(j 1).val, hj1⟩ : Fin 1) := by
    funext a; apply Fin.ext
    match a with
    | ⟨0, _⟩ => show win4_7.index t (0 : Fin 2) * 2048 + 1 * (j 0).val = (j 0).val; omega
    | ⟨1, _⟩ => show win4_7.index t (1 : Fin 2) * 1 + 1 * (j 1).val = (j 1).val; omega
  rw [hemb]
  refine (congrArg (k4_pay1 (iblk4 V c 0 t) (iblk4 V c 1 t) (iblk4 V c 2 t) (iblk4 V c 3 t) (iblk4 V c 4 t) (iblk4 V c 5 t) (iblk4 V c 6 t)) ej).trans ?_
  exact block_eq (V c main_v76) (V c main_arg9) (V c main_arg10) (V c main_arg11) (V c main_arg12) (V c main_arg13) (V c main_arg14)
    (iblk4 V c 0 t) (iblk4 V c 1 t) (iblk4 V c 2 t) (iblk4 V c 3 t) (iblk4 V c 4 t) (iblk4 V c 5 t) (iblk4 V c 6 t)
    r0 r1 r2 r3 r4 r5 r6 _ _

/-- An index of the result array is in the one block iff each coordinate is in the block's range on its axis. -/
theorem mem_blk (t : Fin cfg4.N) (i : S2048x1.Idx) :
    i ∈ ((cfg4.win 7).blk t).view.set ↔ ∀ a : Fin 2, win4_7.index t a * S2048x1.size a ≤ (i a).val ∧ (i a).val < win4_7.index t a * S2048x1.size a + S2048x1.size a := by
  show i ∈ ((View.whole main_v77).slice (win4_7.rect t)).set ↔ _
  rw [View.set_slice_whole, Rect.mem_set_unit]
  exact Iff.rfl

/-- The one block is the whole array. -/
theorem cover (i : S2048x1.Idx) :
    ∃ t : Fin cfg4.N, (cfg4.win 7).flush t = true ∧ i ∈ ((cfg4.win 7).blk t).view.set := by
  have hi0 : (i 0).val < 2048 := (i 0).isLt
  have hi1 : (i 1).val < 1 := (i 1).isLt
  let t : Fin cfg4.N := ⟨0, by show 0 < 1; omega⟩
  obtain ⟨-, -, -, -, -, -, -, -, -, -, -, f11, f12⟩ := idx_facts t
  refine ⟨t, flush4_7 t, ?_⟩
  rw [mem_blk]
  intro a
  match a with
  | ⟨0, _⟩ => show win4_7.index t (0 : Fin 2) * 2048 ≤ (i 0).val ∧ (i 0).val < win4_7.index t (0 : Fin 2) * 2048 + 2048; omega
  | ⟨1, _⟩ => show win4_7.index t (1 : Fin 2) * 1 ≤ (i 1).val ∧ (i 1).val < win4_7.index t (1 : Fin 2) * 1 + 1; omega

/-- The result array after the region: the head of the arrays it found. -/
theorem final (c : Dev nD) :
    (dat4 V c).arrAt 7 cfg4.N
      = head (V c main_v76) (V c main_arg9) (V c main_arg10) (V c main_arg11) (V c main_arg12) (V c main_arg13) (V c main_arg14) :=
  (dat4 V c).arrAt_eq_of_cover 7 _ (fun t _ => flushed V c t) cover

end Cert.KernelIdeal.Reg4

end
-- ==== Proof.Glue.lean ====
/-
  The edge-indexed steps of the model, the same in both programs, each as one function (any float instance).

  From the edge list: the source and destination index vectors with one self-loop per node appended
  (`srcE`, `dstE`); the in-degree as a scatter-add of ones (`degE`); its inverse square root where positive
  (`dinvE`); the edge weight, the product of the two gathered inverse square roots (`normE`). One message pass
  (`msgE`): gather the rows of `t` at the sources (a negative index wrapped by the row count), scale each gathered row
  by its edge weight, scatter-add the rows at the destinations into zeros. The pooling (`poolE`): scatter-add the node
  rows at their graph ids into zeros. The proofs never look inside these: both programs apply the very same
  operations, so the values going in are shown equal and the functions stay closed.
-/
import proofs.«159411_j22677427323530_1_alg».proof.Proof.Gen.KernelIdeal

noncomputable section

namespace Cert.KernelIdeal.Glue

open Cert.KernelIdeal Cert.KernelIdeal.Gen Idealize.ShloMosaic

variable {F : FTy → Type} [FloatOps F]

/-- The source indices: row 0 of the edge list, then 0 … 99999. -/
def srcE (ei : (⟨S2x1600000, .i32⟩ : BufTy).Contents (Elt F)) : (⟨S1700000, .i32⟩ : BufTy).Contents (Elt F) :=
  concatenate S1700000 0 [⟨S1600000, shapeCast _ (extractStridedSlice S1x1600000 ![0, 0] ei slices_S2x1600000_S1x1600000_0_0) shapeCasts_S1x1600000_S1600000⟩, ⟨S100000, iotaInDim S100000 32 0⟩] concatenates_S1600000_S100000_S1700000_d0

/-- The destination indices: row 1 of the edge list, then 0 … 99999. -/
def dstE (ei : (⟨S2x1600000, .i32⟩ : BufTy).Contents (Elt F)) : (⟨S1700000, .i32⟩ : BufTy).Contents (Elt F) :=
  concatenate S1700000 0 [⟨S1600000, shapeCast _ (extractStridedSlice S1x1600000 ![1, 0] ei slices_S2x1600000_S1x1600000_1_0) shapeCasts_S1x1600000_S1600000⟩, ⟨S100000, iotaInDim S100000 32 0⟩] concatenates_S1600000_S100000_S1700000_d0

/-- An index vector with negative entries wrapped by the row count, laid as a column of start indices. -/
def wrapCol (s : (⟨S1700000, .i32⟩ : BufTy).Contents (Elt F)) : (⟨S1700000x1, .i32⟩ : BufTy).Contents (Elt F) :=
  broadcastInDim S1700000x1 ![0] bcast_S1700000_S1700000x1_0
    (select (cmpi .slt s (broadcastInDim S1700000 ![] bcast_S_S1700000 (constantI S_ 32 0#32)))
      (addi s (broadcastInDim S1700000 ![] bcast_S_S1700000 (constantI S_ 32 100000#32))) s)

/-- The in-degree (self-loops included): ones scatter-added at the destinations. -/
def degE (d : (⟨S1700000, .i32⟩ : BufTy).Contents (Elt F)) : (⟨S100000, .f32⟩ : BufTy).Contents (Elt F) :=
  Host.scatterAdd scatter_S100000_S1700000x1_S1700000_n_0_0_1
    (broadcastInDim S100000 ![] bcast_S_S100000 (constant S_ .f32 0x00000000#32))
    (broadcastInDim S1700000x1 ![0] bcast_S1700000_S1700000x1_0 d)
    (broadcastInDim S1700000 ![] bcast_S_S1700000 (constant S_ .f32 0x3F800000#32))

/-- The inverse square root of the degree where it is positive, zero elsewhere. -/
def dinvE (d : (⟨S1700000, .i32⟩ : BufTy).Contents (Elt F)) : (⟨S100000, .f32⟩ : BufTy).Contents (Elt F) :=
  select (cmpf (F := F) .ogt (degE d) (broadcastInDim S100000 ![] bcast_S_S100000 (constant S_ .f32 0x00000000#32)))
    (Host.powf (degE d) (broadcastInDim S100000 ![] bcast_S_S100000 (constant S_ .f32 0xBF000000#32)))
    (broadcastInDim S100000 ![] bcast_S_S100000 (id (constant S_ .f32 0x00000000#32)))

/-- The edge weights: the inverse square roots gathered at the two ends, multiplied. -/
def normE (s d : (⟨S1700000, .i32⟩ : BufTy).Contents (Elt F)) : (⟨S1700000, .f32⟩ : BufTy).Contents (Elt F) :=
  mulf (Host.gather gather_S100000_S1700000x1_S1700000_n_0_n_n_0_1_1 (dinvE (F := F) d) (wrapCol (F := F) s))
    (Host.gather gather_S100000_S1700000x1_S1700000_n_0_n_n_0_1_1 (dinvE (F := F) d) (wrapCol (F := F) d))

/-- One message pass over the edges. -/
def msgE (t : (⟨S100000x128, .f32⟩ : BufTy).Contents (Elt F)) (s d : (⟨S1700000, .i32⟩ : BufTy).Contents (Elt F)) (n : (⟨S1700000, .f32⟩ : BufTy).Contents (Elt F)) : (⟨S100000x128, .f32⟩ : BufTy).Contents (Elt F) :=
  Host.scatterAdd scatter_S100000x128_S1700000x1_S1700000x128_1_0_0_1
    (broadcastInDim S100000x128 ![] bcast_S_S100000x128 (constant S_ .f32 0x00000000#32))
    (broadcastInDim S1700000x1 ![0] bcast_S1700000_S1700000x1_0 d)
    (mulf (Host.gather gather_S100000x128_S1700000x1_S1700000x128_1_0_n_n_0_1_1128 t (wrapCol (F := F) s))
      (broadcastInDim S1700000x128 ![0, 1] bcast_S1700000x1_S1700000x128_0_1 (broadcastInDim S1700000x1 ![0] bcast_S1700000_S1700000x1_0 n)))

/-- The pooling of node rows into graph rows. -/
def poolE (h : (⟨S100000x128, .f32⟩ : BufTy).Contents (Elt F)) (seg : (⟨S100000, .i32⟩ : BufTy).Contents (Elt F)) : (⟨S2048x128, .f32⟩ : BufTy).Contents (Elt F) :=
  Host.scatterAdd scatter_S2048x128_S100000x1_S100000x128_1_0_0_1
    (broadcastInDim S2048x128 ![] bcast_S_S2048x128 (constant S_ .f32 0x00000000#32))
    (broadcastInDim S100000x1 ![0] bcast_S100000_S100000x1_0 seg) h

end Cert.KernelIdeal.Glue

end
-- ==== Proof.KHost.lean ====
/-
  The kernel program's host stretches, read.

  For each stretch of host operations between the kernel regions: the buffers it writes (so every other buffer keeps
  its contents through it), and the one value later steps use, as a function of the contents it starts from — the
  index vectors and the edge weights after the first three stretches, one message pass after each of the next three,
  the pooling after the last.
-/
import proofs.«159411_j22677427323530_1_alg».proof.Proof.Gen.KernelIdeal.Launch
import proofs.«159411_j22677427323530_1_alg».proof.Proof.Glue
import Idealize.ShloMosaic.Lib.StableHlo.Run

set_option maxRecDepth 8192

noncomputable section

namespace Cert.KernelIdeal.Host

open Cert.KernelIdeal Cert.KernelIdeal.Gen Cert.KernelIdeal.Glue Idealize.ShloMosaic Idealize.ShloMosaic.TcCoe Idealize.SL.Sem Idealize.ShloMosaic.StableHlo

variable {F : FTy → Type} [FloatOps F]

/-- The buffers stretch 0 writes. -/
abbrev w0 : List (Ref sig .tc) := [main_v0, main_v1, main_v2, main_v3, main_v4, main_v5, main_v6, main_cst, main_v7, main_cst_0, main_v8, main_v9, main_v10, main_cst_1, main_v11, main_v12, main_cst_2, main_v13, main_v14, main_cst_3]
theorem w0_writes : (hostOps0 : List (HloOp τ sig (Elt F))).Forall fun op => op.writes ⊆ (w0.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stretch 0 does not write keeps its contents through it. -/
theorem keep0 (V : Valuation τ sig (Elt F)) (r : Ref sig .tc) (h : r ∉ w0) :
    after hostOps0 V (Proc.devRef .tc r) = V (Proc.devRef .tc r) :=
  after_of_writes_sub hostOps0 _ w0_writes h

/-- The buffers stretch 0_1 writes. -/
abbrev w0_1 : List (Ref sig .tc) := [main_call0_v0, main_call0_v1, main_v15]
theorem w0_1_writes : (hostOps0_1 : List (HloOp τ sig (Elt F))).Forall fun op => op.writes ⊆ (w0_1.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stretch 0_1 does not write keeps its contents through it. -/
theorem keep0_1 (V : Valuation τ sig (Elt F)) (r : Ref sig .tc) (h : r ∉ w0_1) :
    after hostOps0_1 V (Proc.devRef .tc r) = V (Proc.devRef .tc r) :=
  after_of_writes_sub hostOps0_1 _ w0_1_writes h

/-- The buffers stretch 0_2 writes. -/
abbrev w0_2 : List (Ref sig .tc) := [main_c, main_v16, main_v17, main_c_4, main_v18, main_v19, main_v20, main_v21, main_v22, main_c_5, main_v23, main_v24, main_c_6, main_v25, main_v26, main_v27, main_v28, main_v29, main_v30]
theorem w0_2_writes : (hostOps0_2 : List (HloOp τ sig (Elt F))).Forall fun op => op.writes ⊆ (w0_2.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stretch 0_2 does not write keeps its contents through it. -/
theorem keep0_2 (V : Valuation τ sig (Elt F)) (r : Ref sig .tc) (h : r ∉ w0_2) :
    after hostOps0_2 V (Proc.devRef .tc r) = V (Proc.devRef .tc r) :=
  after_of_writes_sub hostOps0_2 _ w0_2_writes h

/-- The buffers stretch 1 writes. -/
abbrev w1 : List (Ref sig .tc) := [main_c_7, main_v32, main_v33, main_c_8, main_v34, main_v35, main_v36, main_v37, main_v38, main_v39, main_v40, main_v41, main_cst_9, main_v42, main_v43, main_v44]
theorem w1_writes : (hostOps1 : List (HloOp τ sig (Elt F))).Forall fun op => op.writes ⊆ (w1.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stretch 1 does not write keeps its contents through it. -/
theorem keep1 (V : Valuation τ sig (Elt F)) (r : Ref sig .tc) (h : r ∉ w1) :
    after hostOps1 V (Proc.devRef .tc r) = V (Proc.devRef .tc r) :=
  after_of_writes_sub hostOps1 _ w1_writes h

/-- The buffers stretch 2 writes. -/
abbrev w2 : List (Ref sig .tc) := [main_c_10, main_v46, main_v47, main_c_11, main_v48, main_v49, main_v50, main_v51, main_v52, main_v53, main_v54, main_v55, main_cst_12, main_v56, main_v57, main_v58]
theorem w2_writes : (hostOps2 : List (HloOp τ sig (Elt F))).Forall fun op => op.writes ⊆ (w2.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stretch 2 does not write keeps its contents through it. -/
theorem keep2 (V : Valuation τ sig (Elt F)) (r : Ref sig .tc) (h : r ∉ w2) :
    after hostOps2 V (Proc.devRef .tc r) = V (Proc.devRef .tc r) :=
  after_of_writes_sub hostOps2 _ w2_writes h

/-- The buffers stretch 3 writes. -/
abbrev w3 : List (Ref sig .tc) := [main_c_13, main_v60, main_v61, main_c_14, main_v62, main_v63, main_v64, main_v65, main_v66, main_v67, main_v68, main_v69, main_cst_15, main_v70, main_v71, main_v72]
theorem w3_writes : (hostOps3 : List (HloOp τ sig (Elt F))).Forall fun op => op.writes ⊆ (w3.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stretch 3 does not write keeps its contents through it. -/
theorem keep3 (V : Valuation τ sig (Elt F)) (r : Ref sig .tc) (h : r ∉ w3) :
    after hostOps3 V (Proc.devRef .tc r) = V (Proc.devRef .tc r) :=
  after_of_writes_sub hostOps3 _ w3_writes h

/-- The buffers stretch 4 writes. -/
abbrev w4 : List (Ref sig .tc) := [main_cst_16, main_v74, main_v75, main_v76]
theorem w4_writes : (hostOps4 : List (HloOp τ sig (Elt F))).Forall fun op => op.writes ⊆ (w4.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stretch 4 does not write keeps its contents through it. -/
theorem keep4 (V : Valuation τ sig (Elt F)) (r : Ref sig .tc) (h : r ∉ w4) :
    after hostOps4 V (Proc.devRef .tc r) = V (Proc.devRef .tc r) :=
  after_of_writes_sub hostOps4 _ w4_writes h

/-! ## The values the stretches leave -/

/-- After the first three stretches the source index vector is `srcE` of the edge list. -/
theorem read_src (V : Valuation τ sig (Elt F)) :
    after hostOps0_2 (after hostOps0_1 (after hostOps0 V)) (Proc.devRef .tc main_v5) = srcE (F := F) (V (Proc.devRef .tc main_arg1)) := by
  simp only [hostOps0_2, hostOps0_1, hostOps0]
  after_results_simp <;> rfl

/-- After the first three stretches the destination index vector is `dstE` of the edge list. -/
theorem read_dst (V : Valuation τ sig (Elt F)) :
    after hostOps0_2 (after hostOps0_1 (after hostOps0 V)) (Proc.devRef .tc main_v6) = dstE (F := F) (V (Proc.devRef .tc main_arg1)) := by
  simp only [hostOps0_2, hostOps0_1, hostOps0]
  after_results_simp <;> rfl

/-- After the first three stretches the edge weights are `normE` of the two index vectors. -/
theorem read_norm (V : Valuation τ sig (Elt F)) :
    after hostOps0_2 (after hostOps0_1 (after hostOps0 V)) (Proc.devRef .tc main_v30)
      = normE (F := F) (srcE (F := F) (V (Proc.devRef .tc main_arg1))) (dstE (F := F) (V (Proc.devRef .tc main_arg1))) := by
  simp only [hostOps0_2, hostOps0_1, hostOps0]
  after_results_simp <;> rfl

/-- Stretch 1 is one message pass on region 0's result. -/
theorem read_msg1 (V : Valuation τ sig (Elt F)) :
    after hostOps1 V (Proc.devRef .tc main_v44)
      = msgE (F := F) (V (Proc.devRef .tc main_v31)) (V (Proc.devRef .tc main_v5)) (V (Proc.devRef .tc main_v6)) (V (Proc.devRef .tc main_v30)) := by
  simp only [hostOps1]
  after_results_simp <;> rfl

/-- Stretch 2 is one message pass on region 1's result. -/
theorem read_msg2 (V : Valuation τ sig (Elt F)) :
    after hostOps2 V (Proc.devRef .tc main_v58)
      = msgE (F := F) (V (Proc.devRef .tc main_v45)) (V (Proc.devRef .tc main_v5)) (V (Proc.devRef .tc main_v6)) (V (Proc.devRef .tc main_v30)) := by
  simp only [hostOps2]
  after_results_simp <;> rfl

/-- Stretch 3 is one message pass on region 2's result. -/
theorem read_msg3 (V : Valuation τ sig (Elt F)) :
    after hostOps3 V (Proc.devRef .tc main_v72)
      = msgE (F := F) (V (Proc.devRef .tc main_v59)) (V (Proc.devRef .tc main_v5)) (V (Proc.devRef .tc main_v6)) (V (Proc.devRef .tc main_v30)) := by
  simp only [hostOps3]
  after_results_simp <;> rfl

/-- Stretch 4 is the pooling of region 3's result by the graph ids. -/
theorem read_pool (V : Valuation τ sig (Elt F)) :
    after hostOps4 V (Proc.devRef .tc main_v76)
      = poolE (F := F) (V (Proc.devRef .tc main_v73)) (V (Proc.devRef .tc main_arg2)) := by
  simp only [hostOps4]
  after_results_simp <;> rfl

end Cert.KernelIdeal.Host

end
-- ==== Proof.Model.lean ====
/-
  The whole model as one function of the fifteen argument arrays (exact values): three graph-convolution layers —
  each a matrix product followed by one message pass over the edges, then the bias and the activation —, the pooling of
  the node rows into their graphs, and the perceptron head. Both programs are shown to end with their result at this
  function of their arguments.
-/
import proofs.«159411_j22677427323530_1_alg».proof.Proof.Glue
import proofs.«159411_j22677427323530_1_alg».proof.Proof.Spec

noncomputable section

namespace Cert.Gcn

open Cert.KernelIdeal Cert.KernelIdeal.Glue Idealize.ShloMosaic

/-- One message pass over the edges of the argument edge list. -/
def pass (x1 : (⟨S2x1600000, .i32⟩ : BufTy).Contents (Elt Ideal)) (t : (⟨S100000x128, .f32⟩ : BufTy).Contents (Elt Ideal)) : (⟨S100000x128, .f32⟩ : BufTy).Contents (Elt Ideal) :=
  msgE (F := Ideal) t (srcE (F := Ideal) x1) (dstE (F := Ideal) x1) (normE (F := Ideal) (srcE (F := Ideal) x1) (dstE (F := Ideal) x1))

/-- The model: its 2048 × 1 result from the fifteen arguments. -/
def model (x0 : (⟨S100000x128, .f32⟩ : BufTy).Contents (Elt Ideal)) (x1 : (⟨S2x1600000, .i32⟩ : BufTy).Contents (Elt Ideal)) (x2 : (⟨S100000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x256, .f32⟩ : BufTy).Contents (Elt Ideal)) (x10 : (⟨S256, .f32⟩ : BufTy).Contents (Elt Ideal)) (x11 : (⟨S256x128, .f32⟩ : BufTy).Contents (Elt Ideal)) (x12 : (⟨S128, .f32⟩ : BufTy).Contents (Elt Ideal)) (x13 : (⟨S128x1, .f32⟩ : BufTy).Contents (Elt Ideal)) (x14 : (⟨S1, .f32⟩ : BufTy).Contents (Elt Ideal)) : (⟨S2048x1, .f32⟩ : BufTy).Contents (Elt Ideal) :=
  head (poolE (F := Ideal)
      (biasAct 100000 128 (pass x1 (dense 100000 128 128 (biasAct 100000 128 (pass x1 (dense 100000 128 128
        (biasAct 100000 128 (pass x1 (dense 100000 128 128 x0 x3)) x4) x5)) x6) x7)) x8) x2)
    x9 x10 x11 x12 x13 x14

end Cert.Gcn

end
-- ==== Proof.KChain.lean ====
/-
  The kernel program's result, read back through its segments to the model's function of the arguments.

  The run leaves the result array at the last region's write-backs. Going backwards: region 4 is the head of the
  pooled rows and its six parameter arrays; the stretch before it is the pooling of region 3's result; region 3 is the
  bias and activation of the last message pass; and so on down to region 0, the product of the features with the first
  weight matrix. The index vectors and the edge weights are computed once, by the first stretches, and no later
  segment writes them or any argument, so each is read where it is used at the value it had when it was made.
-/
import proofs.«159411_j22677427323530_1_alg».proof.Proof.Gen.KernelIdeal.Frame
import proofs.«159411_j22677427323530_1_alg».proof.Proof.Region0
import proofs.«159411_j22677427323530_1_alg».proof.Proof.Region1
import proofs.«159411_j22677427323530_1_alg».proof.Proof.Region2
import proofs.«159411_j22677427323530_1_alg».proof.Proof.Region3
import proofs.«159411_j22677427323530_1_alg».proof.Proof.Region4
import proofs.«159411_j22677427323530_1_alg».proof.Proof.KHost
import proofs.«159411_j22677427323530_1_alg».proof.Proof.Model

set_option maxRecDepth 16384

noncomputable section

namespace Cert.KernelIdeal.Chain

open Cert.KernelIdeal Cert.KernelIdeal.Gen Cert.KernelIdeal.Glue Cert.Gcn
open Idealize.ShloMosaic Idealize.ShloMosaic.TcCoe Idealize.SL.Sem Idealize.ShloMosaic.StableHlo

variable (m : (ℓ : Loc nD τ sig) → Buf (Elt Ideal) ℓ) (ρ : Dev nD → PrngReg)

/-! ## The arguments, each where it is consumed -/

/-- Argument 0 is untouched up to boundary 3. -/
theorem arg0_at3 (c : Dev nD) : W3 m ρ c (Proc.devRef .tc main_arg0) = (m ((c : Thread nD τ).loc main_arg0)) :=
  calc W3 m ρ c (Proc.devRef .tc main_arg0)
    _ = W2 m ρ c (Proc.devRef .tc main_arg0) := Host.keep0_2 _ main_arg0 (by decide)
    _ = W1 m ρ c (Proc.devRef .tc main_arg0) := Host.keep0_1 _ main_arg0 (by decide)
    _ = W0 m ρ c (Proc.devRef .tc main_arg0) := Host.keep0 _ main_arg0 (by decide)
    _ = (m ((c : Thread nD τ).loc main_arg0)) := rfl

/-- Argument 3 is untouched up to boundary 3. -/
theorem arg3_at3 (c : Dev nD) : W3 m ρ c (Proc.devRef .tc main_arg3) = (m ((c : Thread nD τ).loc main_arg3)) :=
  calc W3 m ρ c (Proc.devRef .tc main_arg3)
    _ = W2 m ρ c (Proc.devRef .tc main_arg3) := Host.keep0_2 _ main_arg3 (by decide)
    _ = W1 m ρ c (Proc.devRef .tc main_arg3) := Host.keep0_1 _ main_arg3 (by decide)
    _ = W0 m ρ c (Proc.devRef .tc main_arg3) := Host.keep0 _ main_arg3 (by decide)
    _ = (m ((c : Thread nD τ).loc main_arg3)) := rfl

/-- Argument 4 is untouched up to boundary 5. -/
theorem arg4_at5 (c : Dev nD) : W5 m ρ c (Proc.devRef .tc main_arg4) = (m ((c : Thread nD τ).loc main_arg4)) :=
  calc W5 m ρ c (Proc.devRef .tc main_arg4)
    _ = W4 m ρ c (Proc.devRef .tc main_arg4) := Host.keep1 _ main_arg4 (by decide)
    _ = W3 m ρ c (Proc.devRef .tc main_arg4) := W4_of_ne m ρ c main_arg4 (by decide)
    _ = W2 m ρ c (Proc.devRef .tc main_arg4) := Host.keep0_2 _ main_arg4 (by decide)
    _ = W1 m ρ c (Proc.devRef .tc main_arg4) := Host.keep0_1 _ main_arg4 (by decide)
    _ = W0 m ρ c (Proc.devRef .tc main_arg4) := Host.keep0 _ main_arg4 (by decide)
    _ = (m ((c : Thread nD τ).loc main_arg4)) := rfl

/-- Argument 5 is untouched up to boundary 5. -/
theorem arg5_at5 (c : Dev nD) : W5 m ρ c (Proc.devRef .tc main_arg5) = (m ((c : Thread nD τ).loc main_arg5)) :=
  calc W5 m ρ c (Proc.devRef .tc main_arg5)
    _ = W4 m ρ c (Proc.devRef .tc main_arg5) := Host.keep1 _ main_arg5 (by decide)
    _ = W3 m ρ c (Proc.devRef .tc main_arg5) := W4_of_ne m ρ c main_arg5 (by decide)
    _ = W2 m ρ c (Proc.devRef .tc main_arg5) := Host.keep0_2 _ main_arg5 (by decide)
    _ = W1 m ρ c (Proc.devRef .tc main_arg5) := Host.keep0_1 _ main_arg5 (by decide)
    _ = W0 m ρ c (Proc.devRef .tc main_arg5) := Host.keep0 _ main_arg5 (by decide)
    _ = (m ((c : Thread nD τ).loc main_arg5)) := rfl

/-- Argument 6 is untouched up to boundary 7. -/
theorem arg6_at7 (c : Dev nD) : W7 m ρ c (Proc.devRef .tc main_arg6) = (m ((c : Thread nD τ).loc main_arg6)) :=
  calc W7 m ρ c (Proc.devRef .tc main_arg6)
    _ = W6 m ρ c (Proc.devRef .tc main_arg6) := Host.keep2 _ main_arg6 (by decide)
    _ = W5 m ρ c (Proc.devRef .tc main_arg6) := W6_of_ne m ρ c main_arg6 (by decide)
    _ = W4 m ρ c (Proc.devRef .tc main_arg6) := Host.keep1 _ main_arg6 (by decide)
    _ = W3 m ρ c (Proc.devRef .tc main_arg6) := W4_of_ne m ρ c main_arg6 (by decide)
    _ = W2 m ρ c (Proc.devRef .tc main_arg6) := Host.keep0_2 _ main_arg6 (by decide)
    _ = W1 m ρ c (Proc.devRef .tc main_arg6) := Host.keep0_1 _ main_arg6 (by decide)
    _ = W0 m ρ c (Proc.devRef .tc main_arg6) := Host.keep0 _ main_arg6 (by decide)
    _ = (m ((c : Thread nD τ).loc main_arg6)) := rfl

/-- Argument 7 is untouched up to boundary 7. -/
theorem arg7_at7 (c : Dev nD) : W7 m ρ c (Proc.devRef .tc main_arg7) = (m ((c : Thread nD τ).loc main_arg7)) :=
  calc W7 m ρ c (Proc.devRef .tc main_arg7)
    _ = W6 m ρ c (Proc.devRef .tc main_arg7) := Host.keep2 _ main_arg7 (by decide)
    _ = W5 m ρ c (Proc.devRef .tc main_arg7) := W6_of_ne m ρ c main_arg7 (by decide)
    _ = W4 m ρ c (Proc.devRef .tc main_arg7) := Host.keep1 _ main_arg7 (by decide)
    _ = W3 m ρ c (Proc.devRef .tc main_arg7) := W4_of_ne m ρ c main_arg7 (by decide)
    _ = W2 m ρ c (Proc.devRef .tc main_arg7) := Host.keep0_2 _ main_arg7 (by decide)
    _ = W1 m ρ c (Proc.devRef .tc main_arg7) := Host.keep0_1 _ main_arg7 (by decide)
    _ = W0 m ρ c (Proc.devRef .tc main_arg7) := Host.keep0 _ main_arg7 (by decide)
    _ = (m ((c : Thread nD τ).loc main_arg7)) := rfl

/-- Argument 8 is untouched up to boundary 9. -/
theorem arg8_at9 (c : Dev nD) : W9 m ρ c (Proc.devRef .tc main_arg8) = (m ((c : Thread nD τ).loc main_arg8)) :=
  calc W9 m ρ c (Proc.devRef .tc main_arg8)
    _ = W8 m ρ c (Proc.devRef .tc main_arg8) := Host.keep3 _ main_arg8 (by decide)
    _ = W7 m ρ c (Proc.devRef .tc main_arg8) := W8_of_ne m ρ c main_arg8 (by decide)
    _ = W6 m ρ c (Proc.devRef .tc main_arg8) := Host.keep2 _ main_arg8 (by decide)
    _ = W5 m ρ c (Proc.devRef .tc main_arg8) := W6_of_ne m ρ c main_arg8 (by decide)
    _ = W4 m ρ c (Proc.devRef .tc main_arg8) := Host.keep1 _ main_arg8 (by decide)
    _ = W3 m ρ c (Proc.devRef .tc main_arg8) := W4_of_ne m ρ c main_arg8 (by decide)
    _ = W2 m ρ c (Proc.devRef .tc main_arg8) := Host.keep0_2 _ main_arg8 (by decide)
    _ = W1 m ρ c (Proc.devRef .tc main_arg8) := Host.keep0_1 _ main_arg8 (by decide)
    _ = W0 m ρ c (Proc.devRef .tc main_arg8) := Host.keep0 _ main_arg8 (by decide)
    _ = (m ((c : Thread nD τ).loc main_arg8)) := rfl

/-- Argument 2 is untouched up to boundary 10. -/
theorem arg2_at10 (c : Dev nD) : W10 m ρ c (Proc.devRef .tc main_arg2) = (m ((c : Thread nD τ).loc main_arg2)) :=
  calc W10 m ρ c (Proc.devRef .tc main_arg2)
    _ = W9 m ρ c (Proc.devRef .tc main_arg2) := W10_of_ne m ρ c main_arg2 (by decide)
    _ = W8 m ρ c (Proc.devRef .tc main_arg2) := Host.keep3 _ main_arg2 (by decide)
    _ = W7 m ρ c (Proc.devRef .tc main_arg2) := W8_of_ne m ρ c main_arg2 (by decide)
    _ = W6 m ρ c (Proc.devRef .tc main_arg2) := Host.keep2 _ main_arg2 (by decide)
    _ = W5 m ρ c (Proc.devRef .tc main_arg2) := W6_of_ne m ρ c main_arg2 (by decide)
    _ = W4 m ρ c (Proc.devRef .tc main_arg2) := Host.keep1 _ main_arg2 (by decide)
    _ = W3 m ρ c (Proc.devRef .tc main_arg2) := W4_of_ne m ρ c main_arg2 (by decide)
    _ = W2 m ρ c (Proc.devRef .tc main_arg2) := Host.keep0_2 _ main_arg2 (by decide)
    _ = W1 m ρ c (Proc.devRef .tc main_arg2) := Host.keep0_1 _ main_arg2 (by decide)
    _ = W0 m ρ c (Proc.devRef .tc main_arg2) := Host.keep0 _ main_arg2 (by decide)
    _ = (m ((c : Thread nD τ).loc main_arg2)) := rfl

/-- Argument 9 is untouched up to boundary 11. -/
theorem arg9_at11 (c : Dev nD) : W11 m ρ c (Proc.devRef .tc main_arg9) = (m ((c : Thread nD τ).loc main_arg9)) :=
  calc W11 m ρ c (Proc.devRef .tc main_arg9)
    _ = W10 m ρ c (Proc.devRef .tc main_arg9) := Host.keep4 _ main_arg9 (by decide)
    _ = W9 m ρ c (Proc.devRef .tc main_arg9) := W10_of_ne m ρ c main_arg9 (by decide)
    _ = W8 m ρ c (Proc.devRef .tc main_arg9) := Host.keep3 _ main_arg9 (by decide)
    _ = W7 m ρ c (Proc.devRef .tc main_arg9) := W8_of_ne m ρ c main_arg9 (by decide)
    _ = W6 m ρ c (Proc.devRef .tc main_arg9) := Host.keep2 _ main_arg9 (by decide)
    _ = W5 m ρ c (Proc.devRef .tc main_arg9) := W6_of_ne m ρ c main_arg9 (by decide)
    _ = W4 m ρ c (Proc.devRef .tc main_arg9) := Host.keep1 _ main_arg9 (by decide)
    _ = W3 m ρ c (Proc.devRef .tc main_arg9) := W4_of_ne m ρ c main_arg9 (by decide)
    _ = W2 m ρ c (Proc.devRef .tc main_arg9) := Host.keep0_2 _ main_arg9 (by decide)
    _ = W1 m ρ c (Proc.devRef .tc main_arg9) := Host.keep0_1 _ main_arg9 (by decide)
    _ = W0 m ρ c (Proc.devRef .tc main_arg9) := Host.keep0 _ main_arg9 (by decide)
    _ = (m ((c : Thread nD τ).loc main_arg9)) := rfl

/-- Argument 10 is untouched up to boundary 11. -/
theorem arg10_at11 (c : Dev nD) : W11 m ρ c (Proc.devRef .tc main_arg10) = (m ((c : Thread nD τ).loc main_arg10)) :=
  calc W11 m ρ c (Proc.devRef .tc main_arg10)
    _ = W10 m ρ c (Proc.devRef .tc main_arg10) := Host.keep4 _ main_arg10 (by decide)
    _ = W9 m ρ c (Proc.devRef .tc main_arg10) := W10_of_ne m ρ c main_arg10 (by decide)
    _ = W8 m ρ c (Proc.devRef .tc main_arg10) := Host.keep3 _ main_arg10 (by decide)
    _ = W7 m ρ c (Proc.devRef .tc main_arg10) := W8_of_ne m ρ c main_arg10 (by decide)
    _ = W6 m ρ c (Proc.devRef .tc main_arg10) := Host.keep2 _ main_arg10 (by decide)
    _ = W5 m ρ c (Proc.devRef .tc main_arg10) := W6_of_ne m ρ c main_arg10 (by decide)
    _ = W4 m ρ c (Proc.devRef .tc main_arg10) := Host.keep1 _ main_arg10 (by decide)
    _ = W3 m ρ c (Proc.devRef .tc main_arg10) := W4_of_ne m ρ c main_arg10 (by decide)
    _ = W2 m ρ c (Proc.devRef .tc main_arg10) := Host.keep0_2 _ main_arg10 (by decide)
    _ = W1 m ρ c (Proc.devRef .tc main_arg10) := Host.keep0_1 _ main_arg10 (by decide)
    _ = W0 m ρ c (Proc.devRef .tc main_arg10) := Host.keep0 _ main_arg10 (by decide)
    _ = (m ((c : Thread nD τ).loc main_arg10)) := rfl

/-- Argument 11 is untouched up to boundary 11. -/
theorem arg11_at11 (c : Dev nD) : W11 m ρ c (Proc.devRef .tc main_arg11) = (m ((c : Thread nD τ).loc main_arg11)) :=
  calc W11 m ρ c (Proc.devRef .tc main_arg11)
    _ = W10 m ρ c (Proc.devRef .tc main_arg11) := Host.keep4 _ main_arg11 (by decide)
    _ = W9 m ρ c (Proc.devRef .tc main_arg11) := W10_of_ne m ρ c main_arg11 (by decide)
    _ = W8 m ρ c (Proc.devRef .tc main_arg11) := Host.keep3 _ main_arg11 (by decide)
    _ = W7 m ρ c (Proc.devRef .tc main_arg11) := W8_of_ne m ρ c main_arg11 (by decide)
    _ = W6 m ρ c (Proc.devRef .tc main_arg11) := Host.keep2 _ main_arg11 (by decide)
    _ = W5 m ρ c (Proc.devRef .tc main_arg11) := W6_of_ne m ρ c main_arg11 (by decide)
    _ = W4 m ρ c (Proc.devRef .tc main_arg11) := Host.keep1 _ main_arg11 (by decide)
    _ = W3 m ρ c (Proc.devRef .tc main_arg11) := W4_of_ne m ρ c main_arg11 (by decide)
    _ = W2 m ρ c (Proc.devRef .tc main_arg11) := Host.keep0_2 _ main_arg11 (by decide)
    _ = W1 m ρ c (Proc.devRef .tc main_arg11) := Host.keep0_1 _ main_arg11 (by decide)
    _ = W0 m ρ c (Proc.devRef .tc main_arg11) := Host.keep0 _ main_arg11 (by decide)
    _ = (m ((c : Thread nD τ).loc main_arg11)) := rfl

/-- Argument 12 is untouched up to boundary 11. -/
theorem arg12_at11 (c : Dev nD) : W11 m ρ c (Proc.devRef .tc main_arg12) = (m ((c : Thread nD τ).loc main_arg12)) :=
  calc W11 m ρ c (Proc.devRef .tc main_arg12)
    _ = W10 m ρ c (Proc.devRef .tc main_arg12) := Host.keep4 _ main_arg12 (by decide)
    _ = W9 m ρ c (Proc.devRef .tc main_arg12) := W10_of_ne m ρ c main_arg12 (by decide)
    _ = W8 m ρ c (Proc.devRef .tc main_arg12) := Host.keep3 _ main_arg12 (by decide)
    _ = W7 m ρ c (Proc.devRef .tc main_arg12) := W8_of_ne m ρ c main_arg12 (by decide)
    _ = W6 m ρ c (Proc.devRef .tc main_arg12) := Host.keep2 _ main_arg12 (by decide)
    _ = W5 m ρ c (Proc.devRef .tc main_arg12) := W6_of_ne m ρ c main_arg12 (by decide)
    _ = W4 m ρ c (Proc.devRef .tc main_arg12) := Host.keep1 _ main_arg12 (by decide)
    _ = W3 m ρ c (Proc.devRef .tc main_arg12) := W4_of_ne m ρ c main_arg12 (by decide)
    _ = W2 m ρ c (Proc.devRef .tc main_arg12) := Host.keep0_2 _ main_arg12 (by decide)
    _ = W1 m ρ c (Proc.devRef .tc main_arg12) := Host.keep0_1 _ main_arg12 (by decide)
    _ = W0 m ρ c (Proc.devRef .tc main_arg12) := Host.keep0 _ main_arg12 (by decide)
    _ = (m ((c : Thread nD τ).loc main_arg12)) := rfl

/-- Argument 13 is untouched up to boundary 11. -/
theorem arg13_at11 (c : Dev nD) : W11 m ρ c (Proc.devRef .tc main_arg13) = (m ((c : Thread nD τ).loc main_arg13)) :=
  calc W11 m ρ c (Proc.devRef .tc main_arg13)
    _ = W10 m ρ c (Proc.devRef .tc main_arg13) := Host.keep4 _ main_arg13 (by decide)
    _ = W9 m ρ c (Proc.devRef .tc main_arg13) := W10_of_ne m ρ c main_arg13 (by decide)
    _ = W8 m ρ c (Proc.devRef .tc main_arg13) := Host.keep3 _ main_arg13 (by decide)
    _ = W7 m ρ c (Proc.devRef .tc main_arg13) := W8_of_ne m ρ c main_arg13 (by decide)
    _ = W6 m ρ c (Proc.devRef .tc main_arg13) := Host.keep2 _ main_arg13 (by decide)
    _ = W5 m ρ c (Proc.devRef .tc main_arg13) := W6_of_ne m ρ c main_arg13 (by decide)
    _ = W4 m ρ c (Proc.devRef .tc main_arg13) := Host.keep1 _ main_arg13 (by decide)
    _ = W3 m ρ c (Proc.devRef .tc main_arg13) := W4_of_ne m ρ c main_arg13 (by decide)
    _ = W2 m ρ c (Proc.devRef .tc main_arg13) := Host.keep0_2 _ main_arg13 (by decide)
    _ = W1 m ρ c (Proc.devRef .tc main_arg13) := Host.keep0_1 _ main_arg13 (by decide)
    _ = W0 m ρ c (Proc.devRef .tc main_arg13) := Host.keep0 _ main_arg13 (by decide)
    _ = (m ((c : Thread nD τ).loc main_arg13)) := rfl

/-- Argument 14 is untouched up to boundary 11. -/
theorem arg14_at11 (c : Dev nD) : W11 m ρ c (Proc.devRef .tc main_arg14) = (m ((c : Thread nD τ).loc main_arg14)) :=
  calc W11 m ρ c (Proc.devRef .tc main_arg14)
    _ = W10 m ρ c (Proc.devRef .tc main_arg14) := Host.keep4 _ main_arg14 (by decide)
    _ = W9 m ρ c (Proc.devRef .tc main_arg14) := W10_of_ne m ρ c main_arg14 (by decide)
    _ = W8 m ρ c (Proc.devRef .tc main_arg14) := Host.keep3 _ main_arg14 (by decide)
    _ = W7 m ρ c (Proc.devRef .tc main_arg14) := W8_of_ne m ρ c main_arg14 (by decide)
    _ = W6 m ρ c (Proc.devRef .tc main_arg14) := Host.keep2 _ main_arg14 (by decide)
    _ = W5 m ρ c (Proc.devRef .tc main_arg14) := W6_of_ne m ρ c main_arg14 (by decide)
    _ = W4 m ρ c (Proc.devRef .tc main_arg14) := Host.keep1 _ main_arg14 (by decide)
    _ = W3 m ρ c (Proc.devRef .tc main_arg14) := W4_of_ne m ρ c main_arg14 (by decide)
    _ = W2 m ρ c (Proc.devRef .tc main_arg14) := Host.keep0_2 _ main_arg14 (by decide)
    _ = W1 m ρ c (Proc.devRef .tc main_arg14) := Host.keep0_1 _ main_arg14 (by decide)
    _ = W0 m ρ c (Proc.devRef .tc main_arg14) := Host.keep0 _ main_arg14 (by decide)
    _ = (m ((c : Thread nD τ).loc main_arg14)) := rfl

/-! ## The index vectors and the edge weights, made by the first stretches and kept -/

theorem src_at3 (c : Dev nD) : W3 m ρ c (Proc.devRef .tc main_v5) = srcE (F := Ideal) (m ((c : Thread nD τ).loc main_arg1)) := Host.read_src (W0 m ρ c)
theorem dst_at3 (c : Dev nD) : W3 m ρ c (Proc.devRef .tc main_v6) = dstE (F := Ideal) (m ((c : Thread nD τ).loc main_arg1)) := Host.read_dst (W0 m ρ c)
theorem norm_at3 (c : Dev nD) : W3 m ρ c (Proc.devRef .tc main_v30) = normE (F := Ideal) (srcE (F := Ideal) (m ((c : Thread nD τ).loc main_arg1))) (dstE (F := Ideal) (m ((c : Thread nD τ).loc main_arg1))) := Host.read_norm (W0 m ρ c)
theorem src_at4 (c : Dev nD) : W4 m ρ c (Proc.devRef .tc main_v5) = srcE (F := Ideal) (m ((c : Thread nD τ).loc main_arg1)) :=
  calc W4 m ρ c (Proc.devRef .tc main_v5)
    _ = W3 m ρ c (Proc.devRef .tc main_v5) := W4_of_ne m ρ c main_v5 (by decide)
    _ = srcE (F := Ideal) (m ((c : Thread nD τ).loc main_arg1)) := src_at3 m ρ c
theorem dst_at4 (c : Dev nD) : W4 m ρ c (Proc.devRef .tc main_v6) = dstE (F := Ideal) (m ((c : Thread nD τ).loc main_arg1)) :=
  calc W4 m ρ c (Proc.devRef .tc main_v6)
    _ = W3 m ρ c (Proc.devRef .tc main_v6) := W4_of_ne m ρ c main_v6 (by decide)
    _ = dstE (F := Ideal) (m ((c : Thread nD τ).loc main_arg1)) := dst_at3 m ρ c
theorem norm_at4 (c : Dev nD) : W4 m ρ c (Proc.devRef .tc main_v30) = normE (F := Ideal) (srcE (F := Ideal) (m ((c : Thread nD τ).loc main_arg1))) (dstE (F := Ideal) (m ((c : Thread nD τ).loc main_arg1))) :=
  calc W4 m ρ c (Proc.devRef .tc main_v30)
    _ = W3 m ρ c (Proc.devRef .tc main_v30) := W4_of_ne m ρ c main_v30 (by decide)
    _ = normE (F := Ideal) (srcE (F := Ideal) (m ((c : Thread nD τ).loc main_arg1))) (dstE (F := Ideal) (m ((c : Thread nD τ).loc main_arg1))) := norm_at3 m ρ c

theorem src_at6 (c : Dev nD) : W6 m ρ c (Proc.devRef .tc main_v5) = srcE (F := Ideal) (m ((c : Thread nD τ).loc main_arg1)) :=
  calc W6 m ρ c (Proc.devRef .tc main_v5)
    _ = W5 m ρ c (Proc.devRef .tc main_v5) := W6_of_ne m ρ c main_v5 (by decide)
    _ = W4 m ρ c (Proc.devRef .tc main_v5) := Host.keep1 _ main_v5 (by decide)
    _ = W3 m ρ c (Proc.devRef .tc main_v5) := W4_of_ne m ρ c main_v5 (by decide)
    _ = srcE (F := Ideal) (m ((c : Thread nD τ).loc main_arg1)) := src_at3 m ρ c
theorem dst_at6 (c : Dev nD) : W6 m ρ c (Proc.devRef .tc main_v6) = dstE (F := Ideal) (m ((c : Thread nD τ).loc main_arg1)) :=
  calc W6 m ρ c (Proc.devRef .tc main_v6)
    _ = W5 m ρ c (Proc.devRef .tc main_v6) := W6_of_ne m ρ c main_v6 (by decide)
    _ = W4 m ρ c (Proc.devRef .tc main_v6) := Host.keep1 _ main_v6 (by decide)
    _ = W3 m ρ c (Proc.devRef .tc main_v6) := W4_of_ne m ρ c main_v6 (by decide)
    _ = dstE (F := Ideal) (m ((c : Thread nD τ).loc main_arg1)) := dst_at3 m ρ c
theorem norm_at6 (c : Dev nD) : W6 m ρ c (Proc.devRef .tc main_v30) = normE (F := Ideal) (srcE (F := Ideal) (m ((c : Thread nD τ).loc main_arg1))) (dstE (F := Ideal) (m ((c : Thread nD τ).loc main_arg1))) :=
  calc W6 m ρ c (Proc.devRef .tc main_v30)
    _ = W5 m ρ c (Proc.devRef .tc main_v30) := W6_of_ne m ρ c main_v30 (by decide)
    _ = W4 m ρ c (Proc.devRef .tc main_v30) := Host.keep1 _ main_v30 (by decide)
    _ = W3 m ρ c (Proc.devRef .tc main_v30) := W4_of_ne m ρ c main_v30 (by decide)
    _ = normE (F := Ideal) (srcE (F := Ideal) (m ((c : Thread nD τ).loc main_arg1))) (dstE (F := Ideal) (m ((c : Thread nD τ).loc main_arg1))) := norm_at3 m ρ c

theorem src_at8 (c : Dev nD) : W8 m ρ c (Proc.devRef .tc main_v5) = srcE (F := Ideal) (m ((c : Thread nD τ).loc main_arg1)) :=
  calc W8 m ρ c (Proc.devRef .tc main_v5)
    _ = W7 m ρ c (Proc.devRef .tc main_v5) := W8_of_ne m ρ c main_v5 (by decide)
    _ = W6 m ρ c (Proc.devRef .tc main_v5) := Host.keep2 _ main_v5 (by decide)
    _ = W5 m ρ c (Proc.devRef .tc main_v5) := W6_of_ne m ρ c main_v5 (by decide)
    _ = W4 m ρ c (Proc.devRef .tc main_v5) := Host.keep1 _ main_v5 (by decide)
    _ = W3 m ρ c (Proc.devRef .tc main_v5) := W4_of_ne m ρ c main_v5 (by decide)
    _ = srcE (F := Ideal) (m ((c : Thread nD τ).loc main_arg1)) := src_at3 m ρ c
theorem dst_at8 (c : Dev nD) : W8 m ρ c (Proc.devRef .tc main_v6) = dstE (F := Ideal) (m ((c : Thread nD τ).loc main_arg1)) :=
  calc W8 m ρ c (Proc.devRef .tc main_v6)
    _ = W7 m ρ c (Proc.devRef .tc main_v6) := W8_of_ne m ρ c main_v6 (by decide)
    _ = W6 m ρ c (Proc.devRef .tc main_v6) := Host.keep2 _ main_v6 (by decide)
    _ = W5 m ρ c (Proc.devRef .tc main_v6) := W6_of_ne m ρ c main_v6 (by decide)
    _ = W4 m ρ c (Proc.devRef .tc main_v6) := Host.keep1 _ main_v6 (by decide)
    _ = W3 m ρ c (Proc.devRef .tc main_v6) := W4_of_ne m ρ c main_v6 (by decide)
    _ = dstE (F := Ideal) (m ((c : Thread nD τ).loc main_arg1)) := dst_at3 m ρ c
theorem norm_at8 (c : Dev nD) : W8 m ρ c (Proc.devRef .tc main_v30) = normE (F := Ideal) (srcE (F := Ideal) (m ((c : Thread nD τ).loc main_arg1))) (dstE (F := Ideal) (m ((c : Thread nD τ).loc main_arg1))) :=
  calc W8 m ρ c (Proc.devRef .tc main_v30)
    _ = W7 m ρ c (Proc.devRef .tc main_v30) := W8_of_ne m ρ c main_v30 (by decide)
    _ = W6 m ρ c (Proc.devRef .tc main_v30) := Host.keep2 _ main_v30 (by decide)
    _ = W5 m ρ c (Proc.devRef .tc main_v30) := W6_of_ne m ρ c main_v30 (by decide)
    _ = W4 m ρ c (Proc.devRef .tc main_v30) := Host.keep1 _ main_v30 (by decide)
    _ = W3 m ρ c (Proc.devRef .tc main_v30) := W4_of_ne m ρ c main_v30 (by decide)
    _ = normE (F := Ideal) (srcE (F := Ideal) (m ((c : Thread nD τ).loc main_arg1))) (dstE (F := Ideal) (m ((c : Thread nD τ).loc main_arg1))) := norm_at3 m ρ c

/-! ## The regions' results and the message passes, in order -/

/-- Region 0's result: the product of the features with the first weight matrix. -/
theorem t0 (c : Dev nD) : W4 m ρ c (Proc.devRef .tc main_v31) = dense 100000 128 128 (m ((c : Thread nD τ).loc main_arg0)) (m ((c : Thread nD τ).loc main_arg3)) := by
  refine (W4_arr m ρ c 2).trans ((Reg0.final (V3 m ρ) c).trans ?_)
  show dense 100000 128 128 (W3 m ρ c (Proc.devRef .tc main_arg0)) (W3 m ρ c (Proc.devRef .tc main_arg3)) = _
  rw [arg0_at3 m ρ c, arg3_at3 m ρ c]

/-- The first message pass. -/
theorem g1 (c : Dev nD) : W5 m ρ c (Proc.devRef .tc main_v44) = pass (m ((c : Thread nD τ).loc main_arg1)) (dense 100000 128 128 (m ((c : Thread nD τ).loc main_arg0)) (m ((c : Thread nD τ).loc main_arg3))) := by
  refine (Host.read_msg1 (W4 m ρ c)).trans ?_
  rw [t0 m ρ c, src_at4 m ρ c, dst_at4 m ρ c, norm_at4 m ρ c]
  rfl

/-- Region 1's result. -/
theorem t1 (c : Dev nD) : W6 m ρ c (Proc.devRef .tc main_v45) = dense 100000 128 128 (biasAct 100000 128 (pass (m ((c : Thread nD τ).loc main_arg1)) (dense 100000 128 128 (m ((c : Thread nD τ).loc main_arg0)) (m ((c : Thread nD τ).loc main_arg3)))) (m ((c : Thread nD τ).loc main_arg4))) (m ((c : Thread nD τ).loc main_arg5)) := by
  refine (W6_arr m ρ c 3).trans ((Reg1.final (V5 m ρ) c).trans ?_)
  show dense 100000 128 128 (biasAct 100000 128 (W5 m ρ c (Proc.devRef .tc main_v44)) (W5 m ρ c (Proc.devRef .tc main_arg4))) (W5 m ρ c (Proc.devRef .tc main_arg5)) = _
  rw [g1 m ρ c, arg4_at5 m ρ c, arg5_at5 m ρ c]

/-- The second message pass. -/
theorem g2 (c : Dev nD) : W7 m ρ c (Proc.devRef .tc main_v58) = pass (m ((c : Thread nD τ).loc main_arg1)) (dense 100000 128 128 (biasAct 100000 128 (pass (m ((c : Thread nD τ).loc main_arg1)) (dense 100000 128 128 (m ((c : Thread nD τ).loc main_arg0)) (m ((c : Thread nD τ).loc main_arg3)))) (m ((c : Thread nD τ).loc main_arg4))) (m ((c : Thread nD τ).loc main_arg5))) := by
  refine (Host.read_msg2 (W6 m ρ c)).trans ?_
  rw [t1 m ρ c, src_at6 m ρ c, dst_at6 m ρ c, norm_at6 m ρ c]
  rfl

/-- Region 2's result. -/
theorem t2 (c : Dev nD) : W8 m ρ c (Proc.devRef .tc main_v59) = dense 100000 128 128 (biasAct 100000 128 (pass (m ((c : Thread nD τ).loc main_arg1)) (dense 100000 128 128 (biasAct 100000 128 (pass (m ((c : Thread nD τ).loc main_arg1)) (dense 100000 128 128 (m ((c : Thread nD τ).loc main_arg0)) (m ((c : Thread nD τ).loc main_arg3)))) (m ((c : Thread nD τ).loc main_arg4))) (m ((c : Thread nD τ).loc main_arg5)))) (m ((c : Thread nD τ).loc main_arg6))) (m ((c : Thread nD τ).loc main_arg7)) := by
  refine (W8_arr m ρ c 3).trans ((Reg2.final (V7 m ρ) c).trans ?_)
  show dense 100000 128 128 (biasAct 100000 128 (W7 m ρ c (Proc.devRef .tc main_v58)) (W7 m ρ c (Proc.devRef .tc main_arg6))) (W7 m ρ c (Proc.devRef .tc main_arg7)) = _
  rw [g2 m ρ c, arg6_at7 m ρ c, arg7_at7 m ρ c]

/-- The third message pass. -/
theorem g3 (c : Dev nD) : W9 m ρ c (Proc.devRef .tc main_v72) = pass (m ((c : Thread nD τ).loc main_arg1)) (dense 100000 128 128 (biasAct 100000 128 (pass (m ((c : Thread nD τ).loc main_arg1)) (dense 100000 128 128 (biasAct 100000 128 (pass (m ((c : Thread nD τ).loc main_arg1)) (dense 100000 128 128 (m ((c : Thread nD τ).loc main_arg0)) (m ((c : Thread nD τ).loc main_arg3)))) (m ((c : Thread nD τ).loc main_arg4))) (m ((c : Thread nD τ).loc main_arg5)))) (m ((c : Thread nD τ).loc main_arg6))) (m ((c : Thread nD τ).loc main_arg7))) := by
  refine (Host.read_msg3 (W8 m ρ c)).trans ?_
  rw [t2 m ρ c, src_at8 m ρ c, dst_at8 m ρ c, norm_at8 m ρ c]
  rfl

/-- Region 3's result: the last layer's activated node rows. -/
theorem h3 (c : Dev nD) : W10 m ρ c (Proc.devRef .tc main_v73) = biasAct 100000 128 (pass (m ((c : Thread nD τ).loc main_arg1)) (dense 100000 128 128 (biasAct 100000 128 (pass (m ((c : Thread nD τ).loc main_arg1)) (dense 100000 128 128 (biasAct 100000 128 (pass (m ((c : Thread nD τ).loc main_arg1)) (dense 100000 128 128 (m ((c : Thread nD τ).loc main_arg0)) (m ((c : Thread nD τ).loc main_arg3)))) (m ((c : Thread nD τ).loc main_arg4))) (m ((c : Thread nD τ).loc main_arg5)))) (m ((c : Thread nD τ).loc main_arg6))) (m ((c : Thread nD τ).loc main_arg7)))) (m ((c : Thread nD τ).loc main_arg8)) := by
  refine (W10_arr m ρ c 2).trans ((Reg3.final (V9 m ρ) c).trans ?_)
  show biasAct 100000 128 (W9 m ρ c (Proc.devRef .tc main_v72)) (W9 m ρ c (Proc.devRef .tc main_arg8)) = _
  rw [g3 m ρ c, arg8_at9 m ρ c]

/-- The pooled graph rows. -/
theorem p4 (c : Dev nD) : W11 m ρ c (Proc.devRef .tc main_v76) = poolE (F := Ideal) (biasAct 100000 128 (pass (m ((c : Thread nD τ).loc main_arg1)) (dense 100000 128 128 (biasAct 100000 128 (pass (m ((c : Thread nD τ).loc main_arg1)) (dense 100000 128 128 (biasAct 100000 128 (pass (m ((c : Thread nD τ).loc main_arg1)) (dense 100000 128 128 (m ((c : Thread nD τ).loc main_arg0)) (m ((c : Thread nD τ).loc main_arg3)))) (m ((c : Thread nD τ).loc main_arg4))) (m ((c : Thread nD τ).loc main_arg5)))) (m ((c : Thread nD τ).loc main_arg6))) (m ((c : Thread nD τ).loc main_arg7)))) (m ((c : Thread nD τ).loc main_arg8))) (m ((c : Thread nD τ).loc main_arg2)) := by
  refine (Host.read_pool (W10 m ρ c)).trans ?_
  rw [h3 m ρ c, arg2_at10 m ρ c]

/-- THE RESULT: the model's function of the arguments. -/
theorem result (c : Dev nD) :
    W12 m ρ c (Proc.devRef .tc main_v77)
      = model (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  refine (W12_arr m ρ c 7).trans ((Reg4.final (V11 m ρ) c).trans ?_)
  show head (W11 m ρ c (Proc.devRef .tc main_v76)) (W11 m ρ c (Proc.devRef .tc main_arg9)) (W11 m ρ c (Proc.devRef .tc main_arg10)) (W11 m ρ c (Proc.devRef .tc main_arg11))
      (W11 m ρ c (Proc.devRef .tc main_arg12)) (W11 m ρ c (Proc.devRef .tc main_arg13)) (W11 m ρ c (Proc.devRef .tc main_arg14)) = _
  rw [p4 m ρ c, arg9_at11 m ρ c, arg10_at11 m ρ c, arg11_at11 m ρ c, arg12_at11 m ρ c, arg13_at11 m ρ c, arg14_at11 m ρ c]
  rfl

end Cert.KernelIdeal.Chain

end
-- ==== Proof.LibBroadcastInDim.lean ====
/-
  Readings of `broadcast_in_dim` at an element. Between a vector and a matrix: a length-b vector laid as a
  [1, b] row; a [1, b] row repeated down `a` rows; a length-a vector laid as an [a, 1] column; an [a, 1] column repeated
  across `b` lanes. And a scalar repeated over any shape. Each reads one element of its operand.
-/
import Idealize.ShloMosaic.Lib.Pipeline.Value
import Idealize.ShloMosaic.Lib.ValueIdx

namespace Idealize.ShloMosaic.ValueIdx

variable {α : Type}

/-- A length-b vector laid as a [1, b] row reads, at (u, j), the vector at j. -/
theorem broadcastInDim_b_1b_apply {b : ℕ} (x : (⟨1, ![b]⟩ : Shape).Idx → α)
    (h : (⟨1, ![b]⟩ : Shape).BroadcastsInDim ⟨2, ![1, b]⟩ ![1]) (u : Fin 1) (j : Fin b) :
    broadcastInDim ⟨2, ![1, b]⟩ ![1] h x (ix2 u j) = x (ix1 j) := by
  refine broadcastInDim_apply _ h x (ix2 u j) (ix1 j) fun ax => ?_
  match ax with
  | ⟨0, _⟩ =>
    show j.val = if b = 1 then 0 else j.val
    split
    · have := j.isLt; omega
    · rfl

/-- A [1, b] row repeated down `a` rows reads, at (r, j), the row at (0, j). -/
theorem broadcastInDim_1b_ab_apply {a b : ℕ} (x : (⟨2, ![1, b]⟩ : Shape).Idx → α)
    (h : (⟨2, ![1, b]⟩ : Shape).BroadcastsInDim ⟨2, ![a, b]⟩ ![0, 1]) (r : Fin a) (j : Fin b) :
    broadcastInDim ⟨2, ![a, b]⟩ ![0, 1] h x (ix2 r j) = x (ix2 (0 : Fin 1) j) := by
  refine broadcastInDim_apply _ h x (ix2 r j) (ix2 (0 : Fin 1) j) fun ax => ?_
  match ax with
  | ⟨0, _⟩ =>
    show (0 : ℕ) = if (1 : ℕ) = 1 then 0 else r.val
    rw [if_pos rfl]
  | ⟨1, _⟩ =>
    show j.val = if b = 1 then 0 else j.val
    split
    · have := j.isLt; omega
    · rfl

/-- A length-a vector laid as an [a, 1] column reads, at (r, u), the vector at r. -/
theorem broadcastInDim_a_a1_apply {a : ℕ} (x : (⟨1, ![a]⟩ : Shape).Idx → α)
    (h : (⟨1, ![a]⟩ : Shape).BroadcastsInDim ⟨2, ![a, 1]⟩ ![0]) (r : Fin a) (u : Fin 1) :
    broadcastInDim ⟨2, ![a, 1]⟩ ![0] h x (ix2 r u) = x (ix1 r) := by
  refine broadcastInDim_apply _ h x (ix2 r u) (ix1 r) fun ax => ?_
  match ax with
  | ⟨0, _⟩ =>
    show r.val = if a = 1 then 0 else r.val
    split
    · have := r.isLt; omega
    · rfl

/-- An [a, 1] column repeated across `b` lanes reads, at (r, j), the column at (r, 0). -/
theorem broadcastInDim_a1_ab_apply {a b : ℕ} (x : (⟨2, ![a, 1]⟩ : Shape).Idx → α)
    (h : (⟨2, ![a, 1]⟩ : Shape).BroadcastsInDim ⟨2, ![a, b]⟩ ![0, 1]) (r : Fin a) (j : Fin b) :
    broadcastInDim ⟨2, ![a, b]⟩ ![0, 1] h x (ix2 r j) = x (ix2 r (0 : Fin 1)) := by
  refine broadcastInDim_apply _ h x (ix2 r j) (ix2 r (0 : Fin 1)) fun ax => ?_
  match ax with
  | ⟨0, _⟩ =>
    show r.val = if a = 1 then 0 else r.val
    split
    · have := r.isLt; omega
    · rfl
  | ⟨1, _⟩ =>
    show (0 : ℕ) = if (1 : ℕ) = 1 then 0 else j.val
    rw [if_pos rfl]

/-- A scalar repeated over any shape reads, at every index, the scalar. -/
theorem broadcastInDim_scalar_apply {t : Shape} (x : (⟨0, ![]⟩ : Shape).Idx → α)
    (h : (⟨0, ![]⟩ : Shape).BroadcastsInDim t ![]) (i : t.Idx) : broadcastInDim t ![] h x i = x ix0 :=
  broadcastInDim_apply _ h x i ix0 fun a => a.elim0

end Idealize.ShloMosaic.ValueIdx
-- ==== Proof.RefStages.lean ====
/-
  The reference's dense stages, each as the model's function of the stage before it (exact values).

  Between its gather / scatter steps the reference applies: a matrix product; "add the bias row, activate, matrix
  product" (twice); "add the bias row, activate"; and after the pooling scatter the perceptron head. The host's matrix
  product is the plain sum over the contracted axis, and a bias laid as a 1 × K row and repeated down the rows
  contributes its entry of the column; the host's exp and tanh are the same functions of an extended real as the
  kernel's.
-/
import proofs.«159411_j22677427323530_1_alg».proof.Proof.RefRead
import proofs.«159411_j22677427323530_1_alg».proof.Proof.Spec
import proofs.«159411_j22677427323530_1_alg».proof.Proof.LibPlainDot
import proofs.«159411_j22677427323530_1_alg».proof.Proof.LibBroadcastInDim

noncomputable section

namespace Cert.ReferenceIdeal.Stages

open Cert.ReferenceIdeal Cert.ReferenceIdeal.ReadP Idealize.ShloMosaic Idealize.ShloMosaic.ValueIdx Cert.Gcn

/-- A bias laid as a 1 × K row and repeated down N rows reads, at (p, q), the bias at q. -/
theorem hostBias_apply {N K : ℕ} (b : FVec Ideal ⟨1, ![K]⟩ .f32)
    (h1 : (⟨1, ![K]⟩ : Shape).BroadcastsInDim ⟨2, ![1, K]⟩ ![1])
    (h2 : (⟨2, ![1, K]⟩ : Shape).BroadcastsInDim ⟨2, ![N, K]⟩ ![0, 1]) (p : Fin N) (q : Fin K) :
    broadcastInDim ⟨2, ![N, K]⟩ ![0, 1] h2 (broadcastInDim ⟨2, ![1, K]⟩ ![1] h1 b) (ix2 p q) = b (ix1 q) :=
  (broadcastInDim_1b_ab_apply _ h2 p q).trans (broadcastInDim_b_1b_apply b h1 0 q)

/-- The host's "add the bias row, activate" is `biasAct`. -/
theorem hostBiasAct_eq {N K : ℕ} (a : FVec Ideal ⟨2, ![N, K]⟩ .f32) (b : FVec Ideal ⟨1, ![K]⟩ .f32)
    (h1 : (⟨1, ![K]⟩ : Shape).BroadcastsInDim ⟨2, ![1, K]⟩ ![1])
    (h2 : (⟨2, ![1, K]⟩ : Shape).BroadcastsInDim ⟨2, ![N, K]⟩ ![0, 1]) :
    mulf (addf a (broadcastInDim ⟨2, ![N, K]⟩ ![0, 1] h2 (broadcastInDim ⟨2, ![1, K]⟩ ![1] h1 b)))
        (Host.tanh (Host.exp (addf a (broadcastInDim ⟨2, ![N, K]⟩ ![0, 1] h2 (broadcastInDim ⟨2, ![1, K]⟩ ![1] h1 b)))))
      = biasAct N K a b := by
  funext i
  obtain ⟨p, q, rfl⟩ : ∃ (p : Fin N) (q : Fin K), i = ix2 p q := ⟨i 0, i 1, eq_ix2 i⟩
  show (a (ix2 p q) + broadcastInDim ⟨2, ![N, K]⟩ ![0, 1] h2 (broadcastInDim ⟨2, ![1, K]⟩ ![1] h1 b) (ix2 p q))
      * Ideal.tanh (Ideal.exp (a (ix2 p q) + broadcastInDim ⟨2, ![N, K]⟩ ![0, 1] h2 (broadcastInDim ⟨2, ![1, K]⟩ ![1] h1 b) (ix2 p q))) = _
  rw [hostBias_apply b h1 h2 p q]
  rfl

/-- The host's "add the bias row" is `addBias`. -/
theorem hostAddBias_eq {N K : ℕ} (a : FVec Ideal ⟨2, ![N, K]⟩ .f32) (b : FVec Ideal ⟨1, ![K]⟩ .f32)
    (h1 : (⟨1, ![K]⟩ : Shape).BroadcastsInDim ⟨2, ![1, K]⟩ ![1])
    (h2 : (⟨2, ![1, K]⟩ : Shape).BroadcastsInDim ⟨2, ![N, K]⟩ ![0, 1]) :
    addf a (broadcastInDim ⟨2, ![N, K]⟩ ![0, 1] h2 (broadcastInDim ⟨2, ![1, K]⟩ ![1] h1 b)) = addBias N K a b := by
  funext i
  obtain ⟨p, q, rfl⟩ : ∃ (p : Fin N) (q : Fin K), i = ix2 p q := ⟨i 0, i 1, eq_ix2 i⟩
  show a (ix2 p q) + broadcastInDim ⟨2, ![N, K]⟩ ![0, 1] h2 (broadcastInDim ⟨2, ![1, K]⟩ ![1] h1 b) (ix2 p q) = _
  rw [hostBias_apply b h1 h2 p q]
  rfl

/-- The host's matrix product is `dense`. -/
theorem hostDot_eq {M K N : ℕ} (D : DotDims ⟨2, ![M, K]⟩ ⟨2, ![K, N]⟩ ⟨2, ![M, N]⟩) (hD : D = DotDims.plain M K N)
    (L : FVec Ideal ⟨2, ![M, K]⟩ .f32) (R : FVec Ideal ⟨2, ![K, N]⟩ .f32) :
    Host.dotGeneral D none L R = dense M K N L R := by
  funext i
  obtain ⟨p, q, rfl⟩ : ∃ (p : Fin M) (q : Fin N), i = ix2 p q := ⟨i 0, i 1, eq_ix2 i⟩
  exact dotGeneral_plain_apply D hD none L R p q

/-- Layer 0's product. -/
theorem v31_eq (x0 : (⟨S100000x128, .f32⟩ : BufTy).Contents (Elt Ideal)) (x3 : (⟨S128x128, .f32⟩ : BufTy).Contents (Elt Ideal)) :
    val_main_v31 (F := Ideal) x0 x3 = dense 100000 128 128 x0 x3 := by
  unfold val_main_v31
  exact hostDot_eq dot_S100000x128_S128x128_S100000x128_1_0_0_1_n_n rfl x0 x3

/-- Layer 1's product of the activated layer-0 aggregate. -/
theorem v51_eq (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) :
    val_main_v51 (F := Ideal) x0 x1 x3 x4 x5
      = dense 100000 128 128 (biasAct 100000 128 (val_main_v44 (F := Ideal) x0 x1 x3) x4) x5 := by
  unfold val_main_v51 val_main_v50 val_main_v49 val_main_v48 val_main_v47 val_main_v46 val_main_v45
  rw [hostBiasAct_eq]
  exact hostDot_eq dot_S100000x128_S128x128_S100000x128_1_0_0_1_n_n rfl _ x5

/-- Layer 2's product of the activated layer-1 aggregate. -/
theorem v71_eq (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) :
    val_main_v71 (F := Ideal) x0 x1 x3 x4 x5 x6 x7
      = dense 100000 128 128 (biasAct 100000 128 (val_main_v64 (F := Ideal) x0 x1 x3 x4 x5) x6) x7 := by
  unfold val_main_v71 val_main_v70 val_main_v69 val_main_v68 val_main_v67 val_main_v66 val_main_v65
  rw [hostBiasAct_eq]
  exact hostDot_eq dot_S100000x128_S128x128_S100000x128_1_0_0_1_n_n rfl _ x7

/-- The activated layer-2 aggregate. -/
theorem v90_eq (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) :
    val_main_v90 (F := Ideal) x0 x1 x3 x4 x5 x6 x7 x8
      = biasAct 100000 128 (val_main_v84 (F := Ideal) x0 x1 x3 x4 x5 x6 x7) x8 := by
  unfold val_main_v90 val_main_v89 val_main_v88 val_main_v87 val_main_v86 val_main_v85
  exact hostBiasAct_eq _ x8 _ _

/-- The perceptron head of the pooled features. -/
theorem v111_eq (x0 : (⟨S100000x128, .f32⟩ : BufTy).Contents (Elt Ideal)) (x1 : (⟨S2x1600000, .i32⟩ : BufTy).Contents (Elt Ideal)) (x2 : (⟨S100000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x256, .f32⟩ : BufTy).Contents (Elt Ideal)) (x10 : (⟨S256, .f32⟩ : BufTy).Contents (Elt Ideal)) (x11 : (⟨S256x128, .f32⟩ : BufTy).Contents (Elt Ideal)) (x12 : (⟨S128, .f32⟩ : BufTy).Contents (Elt Ideal)) (x13 : (⟨S128x1, .f32⟩ : BufTy).Contents (Elt Ideal)) (x14 : (⟨S1, .f32⟩ : BufTy).Contents (Elt Ideal)) :
    val_main_v111 (F := Ideal) x0 x1 x2 x3 x4 x5 x6 x7 x8 x9 x10 x11 x12 x13 x14
      = head (val_main_v93 (F := Ideal) x0 x1 x2 x3 x4 x5 x6 x7 x8) x9 x10 x11 x12 x13 x14 := by
  unfold val_main_v111 val_main_v110 val_main_v109 val_main_v108 val_main_v107 val_main_v106 val_main_v105 val_main_v104
    val_main_v103 val_main_v102 val_main_v101 val_main_v100 val_main_v99 val_main_v98 val_main_v97 val_main_v96 val_main_v95
    val_main_v94
  rw [hostDot_eq dot_S2048x128_S128x256_S2048x256_1_0_0_1_n_n rfl, hostBiasAct_eq,
    hostDot_eq dot_S2048x256_S256x128_S2048x128_1_0_0_1_n_n rfl, hostBiasAct_eq,
    hostDot_eq dot_S2048x128_S128x1_S2048x1_1_0_0_1_n_n rfl, hostAddBias_eq]
  rfl

end Cert.ReferenceIdeal.Stages

end
-- ==== Proof.RefChain.lean ====
/-
  The reference's result as the model's function of the arguments.

  The reference's run ends with its result at the composition of its operations, one stage per operation. Its edge
  steps are the very operations of `srcE`, `dstE`, `normE`, `msgE` and `poolE`; its dense stages are `dense`,
  `biasAct` and `head`. Composing them in the program's order is `model`.
-/
import proofs.«159411_j22677427323530_1_alg».proof.Proof.RefRead
import proofs.«159411_j22677427323530_1_alg».proof.Proof.RefStages
import proofs.«159411_j22677427323530_1_alg».proof.Proof.Model

noncomputable section

namespace Cert.ReferenceIdeal.Chain

open Cert.ReferenceIdeal Cert.ReferenceIdeal.ReadP Cert.ReferenceIdeal.Stages Cert.Gcn
open Idealize.ShloMosaic Idealize.ShloMosaic.TcCoe Idealize.SL.Sem

/-- The source indices. -/
theorem e5 (x1 : (⟨S2x1600000, .i32⟩ : BufTy).Contents (Elt Ideal)) : val_main_v5 (F := Ideal) x1 = (Cert.KernelIdeal.Glue.srcE (F := Ideal) x1) := rfl
/-- The destination indices. -/
theorem e6 (x1 : (⟨S2x1600000, .i32⟩ : BufTy).Contents (Elt Ideal)) : val_main_v6 (F := Ideal) x1 = (Cert.KernelIdeal.Glue.dstE (F := Ideal) x1) := rfl
/-- The edge weights. -/
theorem e30 (x1 : (⟨S2x1600000, .i32⟩ : BufTy).Contents (Elt Ideal)) : val_main_v30 (F := Ideal) x1 = (Cert.KernelIdeal.Glue.normE (F := Ideal) (Cert.KernelIdeal.Glue.srcE (F := Ideal) x1) (Cert.KernelIdeal.Glue.dstE (F := Ideal) x1)) := rfl

/-- The first message pass. -/
theorem e44 (x0 : (⟨S100000x128, .f32⟩ : BufTy).Contents (Elt Ideal)) (x1 : (⟨S2x1600000, .i32⟩ : BufTy).Contents (Elt Ideal)) (x3 : (⟨S128x128, .f32⟩ : BufTy).Contents (Elt Ideal)) : val_main_v44 (F := Ideal) x0 x1 x3 = (pass x1 (dense 100000 128 128 x0 x3)) := by
  have h : val_main_v44 (F := Ideal) x0 x1 x3
      = Cert.KernelIdeal.Glue.msgE (F := Ideal) (val_main_v31 (F := Ideal) x0 x3) (val_main_v5 (F := Ideal) x1) (val_main_v6 (F := Ideal) x1) (val_main_v30 (F := Ideal) x1) := rfl
  rw [h, v31_eq, e5, e6, e30]
  rfl

/-- The second message pass. -/
theorem e64 (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) : val_main_v64 (F := Ideal) x0 x1 x3 x4 x5 = (pass x1 (dense 100000 128 128 (biasAct 100000 128 (pass x1 (dense 100000 128 128 x0 x3)) x4) x5)) := by
  have h : val_main_v64 (F := Ideal) x0 x1 x3 x4 x5
      = Cert.KernelIdeal.Glue.msgE (F := Ideal) (val_main_v51 (F := Ideal) x0 x1 x3 x4 x5) (val_main_v5 (F := Ideal) x1) (val_main_v6 (F := Ideal) x1) (val_main_v30 (F := Ideal) x1) := rfl
  rw [h, v51_eq, e44, e5, e6, e30]
  rfl

/-- The third message pass. -/
theorem e84 (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) : val_main_v84 (F := Ideal) x0 x1 x3 x4 x5 x6 x7 = (pass x1 (dense 100000 128 128 (biasAct 100000 128 (pass x1 (dense 100000 128 128 (biasAct 100000 128 (pass x1 (dense 100000 128 128 x0 x3)) x4) x5)) x6) x7)) := by
  have h : val_main_v84 (F := Ideal) x0 x1 x3 x4 x5 x6 x7
      = Cert.KernelIdeal.Glue.msgE (F := Ideal) (val_main_v71 (F := Ideal) x0 x1 x3 x4 x5 x6 x7) (val_main_v5 (F := Ideal) x1) (val_main_v6 (F := Ideal) x1) (val_main_v30 (F := Ideal) x1) := rfl
  rw [h, v71_eq, e64, e5, e6, e30]
  rfl

/-- The pooled graph rows. -/
theorem e93 (x0 : (⟨S100000x128, .f32⟩ : BufTy).Contents (Elt Ideal)) (x1 : (⟨S2x1600000, .i32⟩ : BufTy).Contents (Elt Ideal)) (x2 : (⟨S100000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) :
    val_main_v93 (F := Ideal) x0 x1 x2 x3 x4 x5 x6 x7 x8 = Cert.KernelIdeal.Glue.poolE (F := Ideal) (biasAct 100000 128 (pass x1 (dense 100000 128 128 (biasAct 100000 128 (pass x1 (dense 100000 128 128 (biasAct 100000 128 (pass x1 (dense 100000 128 128 x0 x3)) x4) x5)) x6) x7)) x8) x2 := by
  have h : val_main_v93 (F := Ideal) x0 x1 x2 x3 x4 x5 x6 x7 x8
      = Cert.KernelIdeal.Glue.poolE (F := Ideal) (val_main_v90 (F := Ideal) x0 x1 x3 x4 x5 x6 x7 x8) x2 := rfl
  rw [h, v90_eq, e84]

/-- The last stage is the model. -/
theorem e111 (x0 : (⟨S100000x128, .f32⟩ : BufTy).Contents (Elt Ideal)) (x1 : (⟨S2x1600000, .i32⟩ : BufTy).Contents (Elt Ideal)) (x2 : (⟨S100000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x256, .f32⟩ : BufTy).Contents (Elt Ideal)) (x10 : (⟨S256, .f32⟩ : BufTy).Contents (Elt Ideal)) (x11 : (⟨S256x128, .f32⟩ : BufTy).Contents (Elt Ideal)) (x12 : (⟨S128, .f32⟩ : BufTy).Contents (Elt Ideal)) (x13 : (⟨S128x1, .f32⟩ : BufTy).Contents (Elt Ideal)) (x14 : (⟨S1, .f32⟩ : BufTy).Contents (Elt Ideal)) :
    val_main_v111 (F := Ideal) x0 x1 x2 x3 x4 x5 x6 x7 x8 x9 x10 x11 x12 x13 x14 = model x0 x1 x2 x3 x4 x5 x6 x7 x8 x9 x10 x11 x12 x13 x14 := by
  rw [v111_eq, e93]
  rfl

/-- THE RESULT: the run's result term is the model's function of the arguments. -/
theorem result (m : (ℓ : Loc nD τ sig) → Buf (Elt Ideal) ℓ) (c : Dev nD) :
    Cert.ReferenceIdeal.ValueP.res_main_v111 m c
      = model (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) :=
  (val_main_v111_eq m c).trans (e111 ..)

end Cert.ReferenceIdeal.Chain

end
-- ==== Proof.lean ====
/-
  A three-layer graph-convolution model with a perceptron head: the kernel program (dense stages as tiled kernel
  regions between host gather / scatter steps) against the plain reference, at exact values.

  Both programs compute, from the node features x, the edge list, the graph ids and the parameters,
    t₀ = x · W₀;  aᵢ = scatter-add over edges of (tᵢ[src] · norm);  tᵢ₊₁ = act(aᵢ + bᵢ) · Wᵢ₊₁;
    h = act(a₂ + b₂);  g = scatter-add of h by graph id;  out = head(g)
  with act z = z · tanh (exp z), norm the product of the inverse square roots of the in-degrees at an edge's two ends,
  and head two activated dense layers and a last dense layer with bias. The kernel regions tile the 100000 node rows
  into 20 blocks of 5000 and round their matrix operands to a narrower format first; at exact values the rounding is
  the identity and, every entry of a dense stage depending on one row only, the tiling changes nothing. So both
  programs end with their result at `model` of their arguments (Proof/Model.lean): the kernel program by
  Proof/KChain.lean over its run (Proof/KRun.lean), the reference by Proof/RefChain.lean over its run
  (Proof/RefRun.lean). No algebraic law relates the two sides beyond these identities, so the finiteness of the inputs
  is not used. The three frames are the generated ones; the ideal pass rewrote nothing, so `preserves` is trivial.
-/
import proofs.«159411_j22677427323530_1_alg».proof.Defs
import proofs.«159411_j22677427323530_1_alg».proof.Proof.Gen.Kernel
import proofs.«159411_j22677427323530_1_alg».proof.Proof.Gen.Kernel.Skeleton
import proofs.«159411_j22677427323530_1_alg».proof.Proof.Gen.Kernel.Launch
import proofs.«159411_j22677427323530_1_alg».proof.Proof.Gen.Kernel.Points
import proofs.«159411_j22677427323530_1_alg».proof.Proof.Gen.Kernel.Frame
import proofs.«159411_j22677427323530_1_alg».proof.Proof.Gen.KernelIdeal
import proofs.«159411_j22677427323530_1_alg».proof.Proof.Gen.KernelIdeal.Skeleton
import proofs.«159411_j22677427323530_1_alg».proof.Proof.Gen.KernelIdeal.Launch
import proofs.«159411_j22677427323530_1_alg».proof.Proof.Gen.KernelIdeal.Points
import proofs.«159411_j22677427323530_1_alg».proof.Proof.Gen.KernelIdeal.Frame
import proofs.«159411_j22677427323530_1_alg».proof.Proof.Gen.ReferenceIdeal
import proofs.«159411_j22677427323530_1_alg».proof.Proof.Gen.Pre_finite_inputs
import proofs.«159411_j22677427323530_1_alg».proof.Proof.KRun
import proofs.«159411_j22677427323530_1_alg».proof.Proof.KChain
import proofs.«159411_j22677427323530_1_alg».proof.Proof.RefRun
import proofs.«159411_j22677427323530_1_alg».proof.Proof.RefChain
import Idealize.ShloMosaic.Adequacy
import Idealize.ShloMosaic.Init

noncomputable section

namespace Cert.Proof

open Idealize.ShloMosaic Idealize.SL.Sem

theorem frame_p : Cert.frame_Kernel := fun m ρ _ => Cert.Kernel.Gen.frame m ρ

theorem frame_pi : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both runs end with the result at `model` of the arguments, which agree. -/
theorem algebraic : Cert.algebraic_KernelIdeal_ReferenceIdeal := by
  intro m ρ m' ρ' _ hagree
  refine ⟨fun c => Cert.Gcn.model (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14)), ?_, ?_⟩
  · exact (θ_run Cert.KernelIdeal.defs _ _).mono
      (fun r h c => ⟨(h c).1.trans (Cert.KernelIdeal.Chain.result m ρ c), (h c).2⟩)
      (Cert.KernelIdeal.RunV.run_main m ρ)
  · refine (θ_run Cert.ReferenceIdeal.defs _ _).mono (fun r h c => ⟨(h c).1.trans ?_, (h c).2⟩)
      (Cert.ReferenceIdeal.ValueP.run (F := Ideal) m' ρ')
    obtain ⟨h0, h1, h2, h3, h4, h5, h6, h7, h8, h9, h10, h11, h12, h13, h14⟩ := hagree c
    rw [Cert.ReferenceIdeal.Chain.result m' c, h0, h1, h2, h3, h4, h5, h6, h7, h8, h9, h10, h11, h12, h13, h14]

theorem claim : Cert.Claim :=
  ⟨Cert.Kernel.Gen.facts, Cert.KernelIdeal.Gen.facts, Cert.ReferenceIdeal.Gen.facts, Cert.Pre_finite_inputs.Gen.facts,
    frame_p, frame_pi, frame_ri, trivial, algebraic⟩

end Cert.Proof

end
